-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_arg14 : FVec F S1024x1024 .f32) (main_arg15 : FVec F S1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  main_v78

def fn_part3 {F : FTy → Type} [FloatOps F] (main_arg11 : FVec F S1024 .f32) (main_arg12 : FVec F S1024x1024 .f32) (main_arg13 : FVec F S1024 .f32) (main_arg14 : FVec F S1024x1024 .f32) (main_arg15 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_v48 main_v49 main_v50

def fn_part1 {F : FTy → Type} [FloatOps F] (main_arg4 : FVec F S1024 .f32) (main_arg5 : FVec F S1024 .f32) (main_arg6 : FVec F S1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x1024 .f32) (main_arg1 : FVec F S1024 .f32) (main_arg2 : FVec F S1024 .f32) (main_arg3 : FVec F S1024 .f32) (main_arg4 : FVec F S1024 .f32) (main_arg5 : FVec F S1024 .f32) (main_arg6 : FVec F S1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S11x1024 : Shape := ⟨2, ![11, 1024]⟩
abbrev S256x1024 : Shape := ⟨2, ![256, 1024]⟩

abbrev nBuf : Space → Nat
  | .hbm => 37
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S11x1024, .f32⟩
  | .hbm, ⟨28, _⟩ => ⟨S1024x1024, .f32⟩
  | .hbm, ⟨29, _⟩ => ⟨S1024x1024, .bf16⟩
  | .hbm, ⟨30, _⟩ => ⟨S1024x1024, .f32⟩
  | .hbm, ⟨31, _⟩ => ⟨S1024x1024, .bf16⟩
  | .hbm, ⟨32, _⟩ => ⟨S1024x1024, .f32⟩
  | .hbm, ⟨33, _⟩ => ⟨S1024x1024, .bf16⟩
  | .hbm, ⟨34, _⟩ => ⟨S1024x1024, .f32⟩
  | .hbm, ⟨35, _⟩ => ⟨S1024x1024, .bf16⟩
  | .hbm, ⟨36, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S11x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1024_S1x1024_1 : S1024.BroadcastsInDim S1x1024 (![1] : Fin 1 → Fin S1x1024.rank)
  concatenates_S1x1024_S1x1024_S1x1024_S1x1024_S1x1024_S1x1024_S1x1024_S1x1024_S1x1024_S1x1024_S1x1024_S11x1024_d0 : Shape.Concatenates [S1x1024, S1x1024, S1x1024, S1x1024, S1x1024, S1x1024, S1x1024, S1x1024, S1x1024, S1x1024, S1x1024] S11x1024 0
  transposes_S1024x1024_S1024x1024_1_0 : S1024x1024.Transposes [1, 0] S1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S11x1024_S1x1024_0_0 : ∀ a, (![0, 0] : Fin 2 → Nat) a + S1x1024.size a ≤ S11x1024.size a
  h_S1x1024 : 0 < S1x1024.numel
  shapeCasts_S1x1024_S1024 : S1x1024.ShapeCasts S1024
  shapeCasts_S1024_S1x1024 : S1024.ShapeCasts S1x1024
  inb_S11x1024_S1x1024_1_0 : ∀ a, (![1, 0] : Fin 2 → Nat) a + S1x1024.size a ≤ S11x1024.size a
  inb_S11x1024_S1x1024_2_0 : ∀ a, (![2, 0] : Fin 2 → Nat) a + S1x1024.size a ≤ S11x1024.size a
  inb_S11x1024_S1x1024_3_0 : ∀ a, (![3, 0] : Fin 2 → Nat) a + S1x1024.size a ≤ S11x1024.size a
  inb_S11x1024_S1x1024_4_0 : ∀ a, (![4, 0] : Fin 2 → Nat) a + S1x1024.size a ≤ S11x1024.size a
  inb_S11x1024_S1x1024_5_0 : ∀ a, (![5, 0] : Fin 2 → Nat) a + S1x1024.size a ≤ S11x1024.size a
  inb_S11x1024_S1x1024_6_0 : ∀ a, (![6, 0] : Fin 2 → Nat) a + S1x1024.size a ≤ S11x1024.size a
  inb_S11x1024_S1x1024_7_0 : ∀ a, (![7, 0] : Fin 2 → Nat) a + S1x1024.size a ≤ S11x1024.size a
  inb_S11x1024_S1x1024_8_0 : ∀ a, (![8, 0] : Fin 2 → Nat) a + S1x1024.size a ≤ S11x1024.size a
  inb_S11x1024_S1x1024_9_0 : ∀ a, (![9, 0] : Fin 2 → Nat) a + S1x1024.size a ≤ S11x1024.size a
  inb_S11x1024_S1x1024_10_0 : ∀ a, (![10, 0] : Fin 2 → Nat) a + S1x1024.size a ≤ S11x1024.size a
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x1024.size a ≤ S11x1024.size a
  hwx0_1 : ∀ i : grid0.Coords, EltTy.bits .f32 = 32 ∨ (Rect.block (s := S11x1024) S11x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S11x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1024x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1024x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1024x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S1024x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_2 : Ref sig .tc := ⟨.hbm, 75, rfl⟩
abbrev main_v56 : Ref sig .tc := ⟨.hbm, 76, rfl⟩
abbrev main_v57 : Ref sig .tc := ⟨.hbm, 77, rfl⟩
abbrev main_cst_3 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S1024 : S_.BroadcastsInDim S1024 (![] : Fin 0 → Fin S1024.rank)
  transposes_S1024x1024_S1024x1024_1_0 : S1024x1024.Transposes [1, 0] S1024x1024
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KernelRun.lean ====
import proofs.«120466_j13941463842954_1_alg».proof.Proof.Gen.Kernel.Launch
import proofs.«120466_j13941463842954_1_alg».proof.Proof.Gen.Kernel.Skeleton
import proofs.«120466_j13941463842954_1_alg».proof.Proof.Gen.Kernel.Points
import Idealize.ShloMosaic.Lib.Pipeline.FrameBody
import Idealize.ShloMosaic.Lib.Ring
import Idealize.ShloMosaic.Lib.Tactic

/-!
# The run of the program: the host prefix, the one grid of 64 points, and what every array holds at the end

The program first packs the eleven state and parameter vectors into one `11 × 1024` array and transposes and narrows the
four weight matrices; then a grid of 64 points runs the body, point `t` on rows `256 t … 256 t + 255` of the batch.
The body loads its seven windows through whole rectangles, computes, and overwrites the whole output block with one
store. So: no host operation writes an argument array; every input window's buffer holds its block at every point;
the output block after the body is a function of the input blocks (`outBlock`); and the run ends with every argument
array as launched and the result array assembled from the blocks the points wrote back. Everything here holds at any
float instance.
-/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- The buffers of core `c` when the grid starts: the launch contents after the twenty host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that none of the host operations writes is found as launched: each operation writes one buffer, and it is
    another one. -/
local macro "kept_by_prefix" : tactic => `(tactic|
  (refine StableHlo.after_of_forall_not_mem _ _ (List.forall_iff_forall_mem.mp ?_)
   simp only [hostOps0, List.Forall, StableHlo.unary_writes, StableHlo.nary_writes, Finset.mem_singleton]
   repeat' apply And.intro
   all_goals exact StableHlo.devRef_ne_of_ne (by decide)))

theorem V_main_arg0 (c : Dev nD) : V m c main_arg0 = m ((c : Thread nD τ).loc main_arg0) := by
  kept_by_prefix
theorem V_main_arg1 (c : Dev nD) : V m c main_arg1 = m ((c : Thread nD τ).loc main_arg1) := by
  kept_by_prefix
theorem V_main_arg2 (c : Dev nD) : V m c main_arg2 = m ((c : Thread nD τ).loc main_arg2) := by
  kept_by_prefix
theorem V_main_arg3 (c : Dev nD) : V m c main_arg3 = m ((c : Thread nD τ).loc main_arg3) := by
  kept_by_prefix
theorem V_main_arg4 (c : Dev nD) : V m c main_arg4 = m ((c : Thread nD τ).loc main_arg4) := by
  kept_by_prefix
theorem V_main_arg5 (c : Dev nD) : V m c main_arg5 = m ((c : Thread nD τ).loc main_arg5) := by
  kept_by_prefix
theorem V_main_arg6 (c : Dev nD) : V m c main_arg6 = m ((c : Thread nD τ).loc main_arg6) := by
  kept_by_prefix
theorem V_main_arg7 (c : Dev nD) : V m c main_arg7 = m ((c : Thread nD τ).loc main_arg7) := by
  kept_by_prefix
theorem V_main_arg8 (c : Dev nD) : V m c main_arg8 = m ((c : Thread nD τ).loc main_arg8) := by
  kept_by_prefix
theorem V_main_arg9 (c : Dev nD) : V m c main_arg9 = m ((c : Thread nD τ).loc main_arg9) := by
  kept_by_prefix
theorem V_main_arg10 (c : Dev nD) : V m c main_arg10 = m ((c : Thread nD τ).loc main_arg10) := by
  kept_by_prefix
theorem V_main_arg11 (c : Dev nD) : V m c main_arg11 = m ((c : Thread nD τ).loc main_arg11) := by
  kept_by_prefix
theorem V_main_arg12 (c : Dev nD) : V m c main_arg12 = m ((c : Thread nD τ).loc main_arg12) := by
  kept_by_prefix
theorem V_main_arg13 (c : Dev nD) : V m c main_arg13 = m ((c : Thread nD τ).loc main_arg13) := by
  kept_by_prefix
theorem V_main_arg14 (c : Dev nD) : V m c main_arg14 = m ((c : Thread nD τ).loc main_arg14) := by
  kept_by_prefix
theorem V_main_arg15 (c : Dev nD) : V m c main_arg15 = m ((c : Thread nD τ).loc main_arg15) := by
  kept_by_prefix

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether the point fetched it or an earlier one
    did (the block index has not moved since), for any proof data over the arrays `V` whose body leaves the input
    buffers as they were. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run that ends with every array of the grid at what the proof data say and every other unscoped buffer as the
    grid found it: the batch `x` is an input window's array, never written; the fifteen other arguments are no window's
    array; and no host operation wrote any of the sixteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

/-! ## The body's accesses -/

abbrev blkRect : Rect S256x1024 := Rect.unit (s := S256x1024) ![0, 0] S256x1024.size inb_S256x1024_S256x1024_0_0
abbrev matRect : Rect S1024x1024 := Rect.unit (s := S1024x1024) ![0, 0] S1024x1024.size inb_S1024x1024_S1024x1024_0_0
abbrev rowRect0 : Rect S11x1024 := Rect.unit (s := S11x1024) ![0, 0] S1x1024.size inb_S11x1024_S1x1024_0_0
abbrev rowRect1 : Rect S11x1024 := Rect.unit (s := S11x1024) ![1, 0] S1x1024.size inb_S11x1024_S1x1024_1_0
abbrev rowRect2 : Rect S11x1024 := Rect.unit (s := S11x1024) ![2, 0] S1x1024.size inb_S11x1024_S1x1024_2_0
abbrev rowRect3 : Rect S11x1024 := Rect.unit (s := S11x1024) ![3, 0] S1x1024.size inb_S11x1024_S1x1024_3_0
abbrev rowRect4 : Rect S11x1024 := Rect.unit (s := S11x1024) ![4, 0] S1x1024.size inb_S11x1024_S1x1024_4_0
abbrev rowRect5 : Rect S11x1024 := Rect.unit (s := S11x1024) ![5, 0] S1x1024.size inb_S11x1024_S1x1024_5_0
abbrev rowRect6 : Rect S11x1024 := Rect.unit (s := S11x1024) ![6, 0] S1x1024.size inb_S11x1024_S1x1024_6_0
abbrev rowRect7 : Rect S11x1024 := Rect.unit (s := S11x1024) ![7, 0] S1x1024.size inb_S11x1024_S1x1024_7_0
abbrev rowRect8 : Rect S11x1024 := Rect.unit (s := S11x1024) ![8, 0] S1x1024.size inb_S11x1024_S1x1024_8_0
abbrev rowRect9 : Rect S11x1024 := Rect.unit (s := S11x1024) ![9, 0] S1x1024.size inb_S11x1024_S1x1024_9_0
abbrev rowRect10 : Rect S11x1024 := Rect.unit (s := S11x1024) ![10, 0] S1x1024.size inb_S11x1024_S1x1024_10_0

/-! ## What the body leaves in the output buffer -/

/-- The output block after the body, from the six input blocks: the one store's payload, over the loads. -/
def outBlock (x0 : Vec F S256x1024 .f32) (x1 : Vec F S11x1024 .f32) (x2 x3 x4 x5 : Vec F S1024x1024 .bf16) : Vec F S256x1024 .f32 :=
  View.canon [⟨blkRect, k0_pay1 (k0_pay12 (View.ld x1 rowRect10))
    (k0_pay14 (View.ld x0 blkRect) (k0_pay2 (View.ld x1 rowRect0)) (k0_pay3 (View.ld x1 rowRect1)) (k0_pay4 (View.ld x1 rowRect2))
      (k0_pay5 (View.ld x1 rowRect3)) (k0_pay6 (View.ld x1 rowRect4)) (k0_pay7 (View.ld x1 rowRect5)) (k0_pay9 (View.ld x1 rowRect7))
      (k0_pay10 (View.ld x1 rowRect8)) (k0_pay13 (View.ld x1 rowRect4)) (View.ld x2 matRect) (View.ld x3 matRect))
    (k0_pay15 (View.ld x0 blkRect) (k0_pay2 (View.ld x1 rowRect0)) (k0_pay8 (View.ld x1 rowRect6)) (k0_pay11 (View.ld x1 rowRect9)) (View.ld x4 matRect))
    (View.ld x5 matRect)⟩]

/-- The one store covers the buffer. -/
theorem outCover (p0 : Vec F S256x1024 .f32) (y : S256x1024.Idx) :
    ∃ pc ∈ ([⟨blkRect, p0⟩] : List (View.Piece (Elt F) S256x1024 .f32)), y ∈ pc.1.set :=
  View.cover_of_tiled [⟨blkRect, p0⟩] S256x1024.size (by rfl) y

/-! ## The body's triple -/

set_option maxHeartbeats 4000000 in
/-- The body on whole buffers, the inputs' at contents `x0 … x5` and the output's at anything, runs to the end leaving
    the inputs' as they were and the output's at `outBlock` of the inputs'. -/
theorem sound_kernel (c : Dev nD) (E : Set ℕ) (i : grid0.Coords)
    (arg1 : Memref sig .tc .vmem S256x1024 .f32) (harg1 : arg1.IsWhole) (arg2 : Memref sig .tc .vmem S11x1024 .f32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S256x1024 .f32) (harg7 : arg7.IsWhole)
    (x0 : Vec F S256x1024 .f32) (x1 : Vec F S11x1024 .f32) (x2 x3 x4 x5 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlock x0 x1 x2 x3 x4 x5)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (outCover _)

/-! ## The proof data of the grid -/

/-- On core `c`: the arrays as the grid finds them; after the body at point `t` each input buffer at its block and the
    output buffer at `outBlock` of the input blocks; nothing else is used or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
/-- What point `t` leaves in the output buffer. -/
theorem after6 (c : Dev nD) (t : Fin cfg0.N) : (dats m 0 c).after 6 t = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the grid, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, and every final state has every array of the grid at what
    the proof data say and every other unscoped buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its sixteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.Kernel.Run

end
-- ==== Proof.KernelIdealRun.lean ====
import proofs.«120466_j13941463842954_1_alg».proof.Proof.Gen.KernelIdeal.Launch
import proofs.«120466_j13941463842954_1_alg».proof.Proof.Gen.KernelIdeal.Skeleton
import proofs.«120466_j13941463842954_1_alg».proof.Proof.Gen.KernelIdeal.Points
import Idealize.ShloMosaic.Lib.Pipeline.FrameBody
import Idealize.ShloMosaic.Lib.Ring
import Idealize.ShloMosaic.Lib.Tactic

/-!
# The run of the program: the host prefix, the one grid of 64 points, and what every array holds at the end

The program first packs the eleven state and parameter vectors into one `11 × 1024` array and transposes and narrows the
four weight matrices; then a grid of 64 points runs the body, point `t` on rows `256 t … 256 t + 255` of the batch.
The body loads its seven windows through whole rectangles, computes, and overwrites the whole output block with one
store. So: no host operation writes an argument array; every input window's buffer holds its block at every point;
the output block after the body is a function of the input blocks (`outBlock`); and the run ends with every argument
array as launched and the result array assembled from the blocks the points wrote back. Everything here holds at any
float instance.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- The buffers of core `c` when the grid starts: the launch contents after the twenty host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that none of the host operations writes is found as launched: each operation writes one buffer, and it is
    another one. -/
local macro "kept_by_prefix" : tactic => `(tactic|
  (refine StableHlo.after_of_forall_not_mem _ _ (List.forall_iff_forall_mem.mp ?_)
   simp only [hostOps0, List.Forall, StableHlo.unary_writes, StableHlo.nary_writes, Finset.mem_singleton]
   repeat' apply And.intro
   all_goals exact StableHlo.devRef_ne_of_ne (by decide)))

theorem V_main_arg0 (c : Dev nD) : V m c main_arg0 = m ((c : Thread nD τ).loc main_arg0) := by
  kept_by_prefix
theorem V_main_arg1 (c : Dev nD) : V m c main_arg1 = m ((c : Thread nD τ).loc main_arg1) := by
  kept_by_prefix
theorem V_main_arg2 (c : Dev nD) : V m c main_arg2 = m ((c : Thread nD τ).loc main_arg2) := by
  kept_by_prefix
theorem V_main_arg3 (c : Dev nD) : V m c main_arg3 = m ((c : Thread nD τ).loc main_arg3) := by
  kept_by_prefix
theorem V_main_arg4 (c : Dev nD) : V m c main_arg4 = m ((c : Thread nD τ).loc main_arg4) := by
  kept_by_prefix
theorem V_main_arg5 (c : Dev nD) : V m c main_arg5 = m ((c : Thread nD τ).loc main_arg5) := by
  kept_by_prefix
theorem V_main_arg6 (c : Dev nD) : V m c main_arg6 = m ((c : Thread nD τ).loc main_arg6) := by
  kept_by_prefix
theorem V_main_arg7 (c : Dev nD) : V m c main_arg7 = m ((c : Thread nD τ).loc main_arg7) := by
  kept_by_prefix
theorem V_main_arg8 (c : Dev nD) : V m c main_arg8 = m ((c : Thread nD τ).loc main_arg8) := by
  kept_by_prefix
theorem V_main_arg9 (c : Dev nD) : V m c main_arg9 = m ((c : Thread nD τ).loc main_arg9) := by
  kept_by_prefix
theorem V_main_arg10 (c : Dev nD) : V m c main_arg10 = m ((c : Thread nD τ).loc main_arg10) := by
  kept_by_prefix
theorem V_main_arg11 (c : Dev nD) : V m c main_arg11 = m ((c : Thread nD τ).loc main_arg11) := by
  kept_by_prefix
theorem V_main_arg12 (c : Dev nD) : V m c main_arg12 = m ((c : Thread nD τ).loc main_arg12) := by
  kept_by_prefix
theorem V_main_arg13 (c : Dev nD) : V m c main_arg13 = m ((c : Thread nD τ).loc main_arg13) := by
  kept_by_prefix
theorem V_main_arg14 (c : Dev nD) : V m c main_arg14 = m ((c : Thread nD τ).loc main_arg14) := by
  kept_by_prefix
theorem V_main_arg15 (c : Dev nD) : V m c main_arg15 = m ((c : Thread nD τ).loc main_arg15) := by
  kept_by_prefix

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether the point fetched it or an earlier one
    did (the block index has not moved since), for any proof data over the arrays `V` whose body leaves the input
    buffers as they were. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run that ends with every array of the grid at what the proof data say and every other unscoped buffer as the
    grid found it: the batch `x` is an input window's array, never written; the fifteen other arguments are no window's
    array; and no host operation wrote any of the sixteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

/-! ## The body's accesses -/

abbrev blkRect : Rect S256x1024 := Rect.unit (s := S256x1024) ![0, 0] S256x1024.size inb_S256x1024_S256x1024_0_0
abbrev matRect : Rect S1024x1024 := Rect.unit (s := S1024x1024) ![0, 0] S1024x1024.size inb_S1024x1024_S1024x1024_0_0
abbrev rowRect0 : Rect S11x1024 := Rect.unit (s := S11x1024) ![0, 0] S1x1024.size inb_S11x1024_S1x1024_0_0
abbrev rowRect1 : Rect S11x1024 := Rect.unit (s := S11x1024) ![1, 0] S1x1024.size inb_S11x1024_S1x1024_1_0
abbrev rowRect2 : Rect S11x1024 := Rect.unit (s := S11x1024) ![2, 0] S1x1024.size inb_S11x1024_S1x1024_2_0
abbrev rowRect3 : Rect S11x1024 := Rect.unit (s := S11x1024) ![3, 0] S1x1024.size inb_S11x1024_S1x1024_3_0
abbrev rowRect4 : Rect S11x1024 := Rect.unit (s := S11x1024) ![4, 0] S1x1024.size inb_S11x1024_S1x1024_4_0
abbrev rowRect5 : Rect S11x1024 := Rect.unit (s := S11x1024) ![5, 0] S1x1024.size inb_S11x1024_S1x1024_5_0
abbrev rowRect6 : Rect S11x1024 := Rect.unit (s := S11x1024) ![6, 0] S1x1024.size inb_S11x1024_S1x1024_6_0
abbrev rowRect7 : Rect S11x1024 := Rect.unit (s := S11x1024) ![7, 0] S1x1024.size inb_S11x1024_S1x1024_7_0
abbrev rowRect8 : Rect S11x1024 := Rect.unit (s := S11x1024) ![8, 0] S1x1024.size inb_S11x1024_S1x1024_8_0
abbrev rowRect9 : Rect S11x1024 := Rect.unit (s := S11x1024) ![9, 0] S1x1024.size inb_S11x1024_S1x1024_9_0
abbrev rowRect10 : Rect S11x1024 := Rect.unit (s := S11x1024) ![10, 0] S1x1024.size inb_S11x1024_S1x1024_10_0

/-! ## What the body leaves in the output buffer -/

/-- The output block after the body, from the six input blocks: the one store's payload, over the loads. -/
def outBlock (x0 : Vec F S256x1024 .f32) (x1 : Vec F S11x1024 .f32) (x2 x3 x4 x5 : Vec F S1024x1024 .bf16) : Vec F S256x1024 .f32 :=
  View.canon [⟨blkRect, k0_pay1 (k0_pay12 (View.ld x1 rowRect10))
    (k0_pay14 (View.ld x0 blkRect) (k0_pay2 (View.ld x1 rowRect0)) (k0_pay3 (View.ld x1 rowRect1)) (k0_pay4 (View.ld x1 rowRect2))
      (k0_pay5 (View.ld x1 rowRect3)) (k0_pay6 (View.ld x1 rowRect4)) (k0_pay7 (View.ld x1 rowRect5)) (k0_pay9 (View.ld x1 rowRect7))
      (k0_pay10 (View.ld x1 rowRect8)) (k0_pay13 (View.ld x1 rowRect4)) (View.ld x2 matRect) (View.ld x3 matRect))
    (k0_pay15 (View.ld x0 blkRect) (k0_pay2 (View.ld x1 rowRect0)) (k0_pay8 (View.ld x1 rowRect6)) (k0_pay11 (View.ld x1 rowRect9)) (View.ld x4 matRect))
    (View.ld x5 matRect)⟩]

/-- The one store covers the buffer. -/
theorem outCover (p0 : Vec F S256x1024 .f32) (y : S256x1024.Idx) :
    ∃ pc ∈ ([⟨blkRect, p0⟩] : List (View.Piece (Elt F) S256x1024 .f32)), y ∈ pc.1.set :=
  View.cover_of_tiled [⟨blkRect, p0⟩] S256x1024.size (by rfl) y

/-! ## The body's triple -/

set_option maxHeartbeats 4000000 in
/-- The body on whole buffers, the inputs' at contents `x0 … x5` and the output's at anything, runs to the end leaving
    the inputs' as they were and the output's at `outBlock` of the inputs'. -/
theorem sound_kernel (c : Dev nD) (E : Set ℕ) (i : grid0.Coords)
    (arg1 : Memref sig .tc .vmem S256x1024 .f32) (harg1 : arg1.IsWhole) (arg2 : Memref sig .tc .vmem S11x1024 .f32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S256x1024 .f32) (harg7 : arg7.IsWhole)
    (x0 : Vec F S256x1024 .f32) (x1 : Vec F S11x1024 .f32) (x2 x3 x4 x5 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlock x0 x1 x2 x3 x4 x5)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (outCover _)

/-! ## The proof data of the grid -/

/-- On core `c`: the arrays as the grid finds them; after the body at point `t` each input buffer at its block and the
    output buffer at `outBlock` of the input blocks; nothing else is used or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
/-- What point `t` leaves in the output buffer. -/
theorem after6 (c : Dev nD) (t : Fin cfg0.N) : (dats m 0 c).after 6 t = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the grid, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, and every final state has every array of the grid at what
    the proof data say and every other unscoped buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its sixteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.KernelIdeal.Run

end
-- ==== Proof.HostPrefix.lean ====
import proofs.«120466_j13941463842954_1_alg».proof.Proof.KernelIdealRun
import Idealize.ShloMosaic.Lib.Pipeline.Value
import Idealize.ShloMosaic.Lib.ValueIdx
import Idealize.ShloMosaic.Lib.StableHlo.Run
import Idealize.ShloMosaic.PureOps.Ideal.Laws

/-!
# What the host operations leave in the arrays the grid reads

Before the grid starts, eleven vectors are each laid out as a `1 × 1024` row and the rows are joined into one
`11 × 1024` array; each of the four weight matrices is transposed and narrowed. Read at an index over the extended
reals (where narrowing is the identity): row `k` of the packed array at column `q` is entry `q` of the `k`-th
vector, and the transposed matrix at `(a, b)` is the matrix at `(b, a)`.
-/

set_option maxRecDepth 16384

noncomputable section

namespace Cert.KernelIdeal.Result

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem packed_row0 (c : Dev nD) (q : Fin 1024) :
    (V m c main_v11 : S11x1024.Idx → EReal) (ix2 (0 : Fin 11) q) = (m ((c : Thread nD τ).loc main_arg1) : S1024.Idx → EReal) (ix1 q) := by
  dsimp only [V, hostOps0]
  simp only [StableHlo.after_cons, StableHlo.after_nil]
  repeat (rw [StableHlo.unary_result_ne]; rotate_left; decide)
  rw [StableHlo.nary_result]
  generalize hF : (StableHlo.unary main_arg15 main_v10 _ _ _).result _ = F
  refine Eq.trans (concatenate_apply_piece (t := S11x1024) (0 : Fin 2) _ _ _ 0 ?_ S1x1024
    (F (Proc.devRef .tc main_v0) : S1x1024.Idx → EReal) ?_ rfl 0 ?_ (ix2 (0 : Fin 1) q) ?_ ?_) ?_
  · show (0 : Nat) < 11; decide
  · rfl
  · rfl
  · intro b hb
    match b with
    | ⟨0, _⟩ => exact absurd rfl hb
    | ⟨1, _⟩ => rfl
  · rfl
  subst hF
  repeat (first | rw [StableHlo.unary_result] | (rw [StableHlo.unary_result_ne]; rotate_left; decide))
  exact broadcastInDim_apply _ bcast_S1024_S1x1024_1 _ (ix2 (0 : Fin 1) q) (ix1 q) (fun a => match a with
    | ⟨0, _⟩ => by show q.val = if (1024 : Nat) = 1 then 0 else q.val; rw [if_neg (by decide)])

theorem packed_row1 (c : Dev nD) (q : Fin 1024) :
    (V m c main_v11 : S11x1024.Idx → EReal) (ix2 (1 : Fin 11) q) = (m ((c : Thread nD τ).loc main_arg2) : S1024.Idx → EReal) (ix1 q) := by
  dsimp only [V, hostOps0]
  simp only [StableHlo.after_cons, StableHlo.after_nil]
  repeat (rw [StableHlo.unary_result_ne]; rotate_left; decide)
  rw [StableHlo.nary_result]
  generalize hF : (StableHlo.unary main_arg15 main_v10 _ _ _).result _ = F
  refine Eq.trans (concatenate_apply_piece (t := S11x1024) (0 : Fin 2) _ _ _ 1 ?_ S1x1024
    (F (Proc.devRef .tc main_v1) : S1x1024.Idx → EReal) ?_ rfl 1 ?_ (ix2 (0 : Fin 1) q) ?_ ?_) ?_
  · show (1 : Nat) < 11; decide
  · rfl
  · rfl
  · intro b hb
    match b with
    | ⟨0, _⟩ => exact absurd rfl hb
    | ⟨1, _⟩ => rfl
  · rfl
  subst hF
  repeat (first | rw [StableHlo.unary_result] | (rw [StableHlo.unary_result_ne]; rotate_left; decide))
  exact broadcastInDim_apply _ bcast_S1024_S1x1024_1 _ (ix2 (0 : Fin 1) q) (ix1 q) (fun a => match a with
    | ⟨0, _⟩ => by show q.val = if (1024 : Nat) = 1 then 0 else q.val; rw [if_neg (by decide)])

theorem packed_row2 (c : Dev nD) (q : Fin 1024) :
    (V m c main_v11 : S11x1024.Idx → EReal) (ix2 (2 : Fin 11) q) = (m ((c : Thread nD τ).loc main_arg3) : S1024.Idx → EReal) (ix1 q) := by
  dsimp only [V, hostOps0]
  simp only [StableHlo.after_cons, StableHlo.after_nil]
  repeat (rw [StableHlo.unary_result_ne]; rotate_left; decide)
  rw [StableHlo.nary_result]
  generalize hF : (StableHlo.unary main_arg15 main_v10 _ _ _).result _ = F
  refine Eq.trans (concatenate_apply_piece (t := S11x1024) (0 : Fin 2) _ _ _ 2 ?_ S1x1024
    (F (Proc.devRef .tc main_v2) : S1x1024.Idx → EReal) ?_ rfl 2 ?_ (ix2 (0 : Fin 1) q) ?_ ?_) ?_
  · show (2 : Nat) < 11; decide
  · rfl
  · rfl
  · intro b hb
    match b with
    | ⟨0, _⟩ => exact absurd rfl hb
    | ⟨1, _⟩ => rfl
  · rfl
  subst hF
  repeat (first | rw [StableHlo.unary_result] | (rw [StableHlo.unary_result_ne]; rotate_left; decide))
  exact broadcastInDim_apply _ bcast_S1024_S1x1024_1 _ (ix2 (0 : Fin 1) q) (ix1 q) (fun a => match a with
    | ⟨0, _⟩ => by show q.val = if (1024 : Nat) = 1 then 0 else q.val; rw [if_neg (by decide)])

theorem packed_row3 (c : Dev nD) (q : Fin 1024) :
    (V m c main_v11 : S11x1024.Idx → EReal) (ix2 (3 : Fin 11) q) = (m ((c : Thread nD τ).loc main_arg4) : S1024.Idx → EReal) (ix1 q) := by
  dsimp only [V, hostOps0]
  simp only [StableHlo.after_cons, StableHlo.after_nil]
  repeat (rw [StableHlo.unary_result_ne]; rotate_left; decide)
  rw [StableHlo.nary_result]
  generalize hF : (StableHlo.unary main_arg15 main_v10 _ _ _).result _ = F
  refine Eq.trans (concatenate_apply_piece (t := S11x1024) (0 : Fin 2) _ _ _ 3 ?_ S1x1024
    (F (Proc.devRef .tc main_v3) : S1x1024.Idx → EReal) ?_ rfl 3 ?_ (ix2 (0 : Fin 1) q) ?_ ?_) ?_
  · show (3 : Nat) < 11; decide
  · rfl
  · rfl
  · intro b hb
    match b with
    | ⟨0, _⟩ => exact absurd rfl hb
    | ⟨1, _⟩ => rfl
  · rfl
  subst hF
  repeat (first | rw [StableHlo.unary_result] | (rw [StableHlo.unary_result_ne]; rotate_left; decide))
  exact broadcastInDim_apply _ bcast_S1024_S1x1024_1 _ (ix2 (0 : Fin 1) q) (ix1 q) (fun a => match a with
    | ⟨0, _⟩ => by show q.val = if (1024 : Nat) = 1 then 0 else q.val; rw [if_neg (by decide)])

theorem packed_row4 (c : Dev nD) (q : Fin 1024) :
    (V m c main_v11 : S11x1024.Idx → EReal) (ix2 (4 : Fin 11) q) = (m ((c : Thread nD τ).loc main_arg5) : S1024.Idx → EReal) (ix1 q) := by
  dsimp only [V, hostOps0]
  simp only [StableHlo.after_cons, StableHlo.after_nil]
  repeat (rw [StableHlo.unary_result_ne]; rotate_left; decide)
  rw [StableHlo.nary_result]
  generalize hF : (StableHlo.unary main_arg15 main_v10 _ _ _).result _ = F
  refine Eq.trans (concatenate_apply_piece (t := S11x1024) (0 : Fin 2) _ _ _ 4 ?_ S1x1024
    (F (Proc.devRef .tc main_v4) : S1x1024.Idx → EReal) ?_ rfl 4 ?_ (ix2 (0 : Fin 1) q) ?_ ?_) ?_
  · show (4 : Nat) < 11; decide
  · rfl
  · rfl
  · intro b hb
    match b with
    | ⟨0, _⟩ => exact absurd rfl hb
    | ⟨1, _⟩ => rfl
  · rfl
  subst hF
  repeat (first | rw [StableHlo.unary_result] | (rw [StableHlo.unary_result_ne]; rotate_left; decide))
  exact broadcastInDim_apply _ bcast_S1024_S1x1024_1 _ (ix2 (0 : Fin 1) q) (ix1 q) (fun a => match a with
    | ⟨0, _⟩ => by show q.val = if (1024 : Nat) = 1 then 0 else q.val; rw [if_neg (by decide)])

theorem packed_row5 (c : Dev nD) (q : Fin 1024) :
    (V m c main_v11 : S11x1024.Idx → EReal) (ix2 (5 : Fin 11) q) = (m ((c : Thread nD τ).loc main_arg6) : S1024.Idx → EReal) (ix1 q) := by
  dsimp only [V, hostOps0]
  simp only [StableHlo.after_cons, StableHlo.after_nil]
  repeat (rw [StableHlo.unary_result_ne]; rotate_left; decide)
  rw [StableHlo.nary_result]
  generalize hF : (StableHlo.unary main_arg15 main_v10 _ _ _).result _ = F
  refine Eq.trans (concatenate_apply_piece (t := S11x1024) (0 : Fin 2) _ _ _ 5 ?_ S1x1024
    (F (Proc.devRef .tc main_v5) : S1x1024.Idx → EReal) ?_ rfl 5 ?_ (ix2 (0 : Fin 1) q) ?_ ?_) ?_
  · show (5 : Nat) < 11; decide
  · rfl
  · rfl
  · intro b hb
    match b with
    | ⟨0, _⟩ => exact absurd rfl hb
    | ⟨1, _⟩ => rfl
  · rfl
  subst hF
  repeat (first | rw [StableHlo.unary_result] | (rw [StableHlo.unary_result_ne]; rotate_left; decide))
  exact broadcastInDim_apply _ bcast_S1024_S1x1024_1 _ (ix2 (0 : Fin 1) q) (ix1 q) (fun a => match a with
    | ⟨0, _⟩ => by show q.val = if (1024 : Nat) = 1 then 0 else q.val; rw [if_neg (by decide)])

theorem packed_row6 (c : Dev nD) (q : Fin 1024) :
    (V m c main_v11 : S11x1024.Idx → EReal) (ix2 (6 : Fin 11) q) = (m ((c : Thread nD τ).loc main_arg7) : S1024.Idx → EReal) (ix1 q) := by
  dsimp only [V, hostOps0]
  simp only [StableHlo.after_cons, StableHlo.after_nil]
  repeat (rw [StableHlo.unary_result_ne]; rotate_left; decide)
  rw [StableHlo.nary_result]
  generalize hF : (StableHlo.unary main_arg15 main_v10 _ _ _).result _ = F
  refine Eq.trans (concatenate_apply_piece (t := S11x1024) (0 : Fin 2) _ _ _ 6 ?_ S1x1024
    (F (Proc.devRef .tc main_v6) : S1x1024.Idx → EReal) ?_ rfl 6 ?_ (ix2 (0 : Fin 1) q) ?_ ?_) ?_
  · show (6 : Nat) < 11; decide
  · rfl
  · rfl
  · intro b hb
    match b with
    | ⟨0, _⟩ => exact absurd rfl hb
    | ⟨1, _⟩ => rfl
  · rfl
  subst hF
  repeat (first | rw [StableHlo.unary_result] | (rw [StableHlo.unary_result_ne]; rotate_left; decide))
  exact broadcastInDim_apply _ bcast_S1024_S1x1024_1 _ (ix2 (0 : Fin 1) q) (ix1 q) (fun a => match a with
    | ⟨0, _⟩ => by show q.val = if (1024 : Nat) = 1 then 0 else q.val; rw [if_neg (by decide)])

theorem packed_row7 (c : Dev nD) (q : Fin 1024) :
    (V m c main_v11 : S11x1024.Idx → EReal) (ix2 (7 : Fin 11) q) = (m ((c : Thread nD τ).loc main_arg9) : S1024.Idx → EReal) (ix1 q) := by
  dsimp only [V, hostOps0]
  simp only [StableHlo.after_cons, StableHlo.after_nil]
  repeat (rw [StableHlo.unary_result_ne]; rotate_left; decide)
  rw [StableHlo.nary_result]
  generalize hF : (StableHlo.unary main_arg15 main_v10 _ _ _).result _ = F
  refine Eq.trans (concatenate_apply_piece (t := S11x1024) (0 : Fin 2) _ _ _ 7 ?_ S1x1024
    (F (Proc.devRef .tc main_v7) : S1x1024.Idx → EReal) ?_ rfl 7 ?_ (ix2 (0 : Fin 1) q) ?_ ?_) ?_
  · show (7 : Nat) < 11; decide
  · rfl
  · rfl
  · intro b hb
    match b with
    | ⟨0, _⟩ => exact absurd rfl hb
    | ⟨1, _⟩ => rfl
  · rfl
  subst hF
  repeat (first | rw [StableHlo.unary_result] | (rw [StableHlo.unary_result_ne]; rotate_left; decide))
  exact broadcastInDim_apply _ bcast_S1024_S1x1024_1 _ (ix2 (0 : Fin 1) q) (ix1 q) (fun a => match a with
    | ⟨0, _⟩ => by show q.val = if (1024 : Nat) = 1 then 0 else q.val; rw [if_neg (by decide)])

theorem packed_row8 (c : Dev nD) (q : Fin 1024) :
    (V m c main_v11 : S11x1024.Idx → EReal) (ix2 (8 : Fin 11) q) = (m ((c : Thread nD τ).loc main_arg11) : S1024.Idx → EReal) (ix1 q) := by
  dsimp only [V, hostOps0]
  simp only [StableHlo.after_cons, StableHlo.after_nil]
  repeat (rw [StableHlo.unary_result_ne]; rotate_left; decide)
  rw [StableHlo.nary_result]
  generalize hF : (StableHlo.unary main_arg15 main_v10 _ _ _).result _ = F
  refine Eq.trans (concatenate_apply_piece (t := S11x1024) (0 : Fin 2) _ _ _ 8 ?_ S1x1024
    (F (Proc.devRef .tc main_v8) : S1x1024.Idx → EReal) ?_ rfl 8 ?_ (ix2 (0 : Fin 1) q) ?_ ?_) ?_
  · show (8 : Nat) < 11; decide
  · rfl
  · rfl
  · intro b hb
    match b with
    | ⟨0, _⟩ => exact absurd rfl hb
    | ⟨1, _⟩ => rfl
  · rfl
  subst hF
  repeat (first | rw [StableHlo.unary_result] | (rw [StableHlo.unary_result_ne]; rotate_left; decide))
  exact broadcastInDim_apply _ bcast_S1024_S1x1024_1 _ (ix2 (0 : Fin 1) q) (ix1 q) (fun a => match a with
    | ⟨0, _⟩ => by show q.val = if (1024 : Nat) = 1 then 0 else q.val; rw [if_neg (by decide)])

theorem packed_row9 (c : Dev nD) (q : Fin 1024) :
    (V m c main_v11 : S11x1024.Idx → EReal) (ix2 (9 : Fin 11) q) = (m ((c : Thread nD τ).loc main_arg13) : S1024.Idx → EReal) (ix1 q) := by
  dsimp only [V, hostOps0]
  simp only [StableHlo.after_cons, StableHlo.after_nil]
  repeat (rw [StableHlo.unary_result_ne]; rotate_left; decide)
  rw [StableHlo.nary_result]
  generalize hF : (StableHlo.unary main_arg15 main_v10 _ _ _).result _ = F
  refine Eq.trans (concatenate_apply_piece (t := S11x1024) (0 : Fin 2) _ _ _ 9 ?_ S1x1024
    (F (Proc.devRef .tc main_v9) : S1x1024.Idx → EReal) ?_ rfl 9 ?_ (ix2 (0 : Fin 1) q) ?_ ?_) ?_
  · show (9 : Nat) < 11; decide
  · rfl
  · rfl
  · intro b hb
    match b with
    | ⟨0, _⟩ => exact absurd rfl hb
    | ⟨1, _⟩ => rfl
  · rfl
  subst hF
  repeat (first | rw [StableHlo.unary_result] | (rw [StableHlo.unary_result_ne]; rotate_left; decide))
  exact broadcastInDim_apply _ bcast_S1024_S1x1024_1 _ (ix2 (0 : Fin 1) q) (ix1 q) (fun a => match a with
    | ⟨0, _⟩ => by show q.val = if (1024 : Nat) = 1 then 0 else q.val; rw [if_neg (by decide)])

theorem packed_row10 (c : Dev nD) (q : Fin 1024) :
    (V m c main_v11 : S11x1024.Idx → EReal) (ix2 (10 : Fin 11) q) = (m ((c : Thread nD τ).loc main_arg15) : S1024.Idx → EReal) (ix1 q) := by
  dsimp only [V, hostOps0]
  simp only [StableHlo.after_cons, StableHlo.after_nil]
  repeat (rw [StableHlo.unary_result_ne]; rotate_left; decide)
  rw [StableHlo.nary_result]
  generalize hF : (StableHlo.unary main_arg15 main_v10 _ _ _).result _ = F
  refine Eq.trans (concatenate_apply_piece (t := S11x1024) (0 : Fin 2) _ _ _ 10 ?_ S1x1024
    (F (Proc.devRef .tc main_v10) : S1x1024.Idx → EReal) ?_ rfl 10 ?_ (ix2 (0 : Fin 1) q) ?_ ?_) ?_
  · show (10 : Nat) < 11; decide
  · rfl
  · rfl
  · intro b hb
    match b with
    | ⟨0, _⟩ => exact absurd rfl hb
    | ⟨1, _⟩ => rfl
  · rfl
  subst hF
  repeat (first | rw [StableHlo.unary_result] | (rw [StableHlo.unary_result_ne]; rotate_left; decide))
  exact broadcastInDim_apply _ bcast_S1024_S1x1024_1 _ (ix2 (0 : Fin 1) q) (ix1 q) (fun a => match a with
    | ⟨0, _⟩ => by show q.val = if (1024 : Nat) = 1 then 0 else q.val; rw [if_neg (by decide)])

theorem transposed_v13 (c : Dev nD) (a b : Fin 1024) :
    (V m c main_v13 : S1024x1024.Idx → EReal) (ix2 a b) = (m ((c : Thread nD τ).loc main_arg8) : S1024x1024.Idx → EReal) (ix2 b a) := by
  dsimp only [V, hostOps0]
  after_results
  show transpose S1024x1024 [1, 0] (m ((c : Thread nD τ).loc main_arg8)) transposes_S1024x1024_S1024x1024_1_0 (ix2 a b) = _
  exact transpose_apply [1, 0] _ transposes_S1024x1024_S1024x1024_1_0 (ix2 a b) (ix2 b a) (fun b => match b with
    | ⟨0, _⟩ => rfl
    | ⟨1, _⟩ => rfl)

theorem transposed_v15 (c : Dev nD) (a b : Fin 1024) :
    (V m c main_v15 : S1024x1024.Idx → EReal) (ix2 a b) = (m ((c : Thread nD τ).loc main_arg10) : S1024x1024.Idx → EReal) (ix2 b a) := by
  dsimp only [V, hostOps0]
  after_results
  show transpose S1024x1024 [1, 0] (m ((c : Thread nD τ).loc main_arg10)) transposes_S1024x1024_S1024x1024_1_0 (ix2 a b) = _
  exact transpose_apply [1, 0] _ transposes_S1024x1024_S1024x1024_1_0 (ix2 a b) (ix2 b a) (fun b => match b with
    | ⟨0, _⟩ => rfl
    | ⟨1, _⟩ => rfl)

theorem transposed_v17 (c : Dev nD) (a b : Fin 1024) :
    (V m c main_v17 : S1024x1024.Idx → EReal) (ix2 a b) = (m ((c : Thread nD τ).loc main_arg12) : S1024x1024.Idx → EReal) (ix2 b a) := by
  dsimp only [V, hostOps0]
  after_results
  show transpose S1024x1024 [1, 0] (m ((c : Thread nD τ).loc main_arg12)) transposes_S1024x1024_S1024x1024_1_0 (ix2 a b) = _
  exact transpose_apply [1, 0] _ transposes_S1024x1024_S1024x1024_1_0 (ix2 a b) (ix2 b a) (fun b => match b with
    | ⟨0, _⟩ => rfl
    | ⟨1, _⟩ => rfl)

theorem transposed_v19 (c : Dev nD) (a b : Fin 1024) :
    (V m c main_v19 : S1024x1024.Idx → EReal) (ix2 a b) = (m ((c : Thread nD τ).loc main_arg14) : S1024x1024.Idx → EReal) (ix2 b a) := by
  dsimp only [V, hostOps0]
  after_results
  show transpose S1024x1024 [1, 0] (m ((c : Thread nD τ).loc main_arg14)) transposes_S1024x1024_S1024x1024_1_0 (ix2 a b) = _
  exact transpose_apply [1, 0] _ transposes_S1024x1024_S1024x1024_1_0 (ix2 a b) (ix2 b a) (fun b => match b with
    | ⟨0, _⟩ => rfl
    | ⟨1, _⟩ => rfl)

end Cert.KernelIdeal.Result

end
-- ==== Proof.Spec.lean ====
import Idealize.ShloMosaic.PureOps.Ideal
import Idealize.ShloMosaic.Lib.ValueIdx

/-!
# One step of a weighted key-value mix over a batch of rows, as a function of the argument arrays

Every row `r` of the batch `x` (16384 rows of 1024 entries) is first blended with the fixed state row `lx`:
entry `c` of the blend with mixing weights `mu` is `x r c * mu c + lx c * (1 - mu c)`. Three such blends
(with the key, value and receptance weights) are each multiplied by a transposed 1024 × 1024 weight matrix and
shifted by a bias, giving `k`, `v` and `rr`. With `e = exp (bonus + k)` the gated value at `(r, n)` is
`logistic rr * ((num + e * v) / (den + e))`, and the result is that gated row times the transposed output matrix
plus the output bias. All arithmetic is on the extended reals.
-/

noncomputable section

namespace Wkv

open Idealize.ShloMosaic Idealize.ShloMosaic.ValueIdx

/-- A batch of 16384 rows of 1024 entries. -/
abbrev Rows := (⟨2, ![16384, 1024]⟩ : Shape).Idx → EReal
/-- A vector of 1024 entries. -/
abbrev Vec1 := (⟨1, ![1024]⟩ : Shape).Idx → EReal
/-- A 1024 × 1024 matrix. -/
abbrev Mat := (⟨2, ![1024, 1024]⟩ : Shape).Idx → EReal

/-- Entry `c` of row `r` blended with the state row `lx` by the weights `mu`. -/
def mix (x : Rows) (lx mu : Vec1) (r : Fin 16384) (c : Fin 1024) : EReal :=
  x (ix2 r c) * mu (ix1 c) + lx (ix1 c) * (1 - mu (ix1 c))

/-- Entry `n` of row `r` of `a` times the transpose of `W`, plus the bias `b`. -/
def proj (a : Fin 16384 → Fin 1024 → EReal) (W : Mat) (b : Vec1) (r : Fin 16384) (n : Fin 1024) : EReal :=
  (∑ c : Fin 1024, a r c * W (ix2 n c)) + b (ix1 n)

/-- The gated value at `(r, n)`: `logistic rr * ((num + e * v) / (den + e))` with `e = exp (bonus + k)`. -/
def gated (x : Rows) (lx num den bonus mk mv mr : Vec1) (Wk : Mat) (bk : Vec1) (Wv : Mat) (bv : Vec1)
    (Wr : Mat) (br : Vec1) (r : Fin 16384) (n : Fin 1024) : EReal :=
  Ideal.logistic (proj (mix x lx mr) Wr br r n)
    * Ideal.div (num (ix1 n) + Ideal.exp (bonus (ix1 n) + proj (mix x lx mk) Wk bk r n) * proj (mix x lx mv) Wv bv r n)
        (den (ix1 n) + Ideal.exp (bonus (ix1 n) + proj (mix x lx mk) Wk bk r n))

/-- The whole result array. -/
def out (x : Rows) (lx num den bonus mk mv mr : Vec1) (Wk : Mat) (bk : Vec1) (Wv : Mat) (bv : Vec1)
    (Wr : Mat) (br : Vec1) (Wo : Mat) (bo : Vec1) : Rows :=
  fun i => proj (gated x lx num den bonus mk mv mr Wk bk Wv bv Wr br) Wo bo (i 0) (i 1)

/-! ## The same step on one block of 256 rows, over the arrays as a kernel body finds them

A body sees 256 rows `xb` of the batch, each state or weight vector as a `1 × 1024` row, and each weight matrix
already transposed (`Wt (c, n) = W (n, c)`). -/

/-- A block of 256 rows of 1024 entries. -/
abbrev Blk := (⟨2, ![256, 1024]⟩ : Shape).Idx → EReal
/-- A vector of 1024 entries kept as a `1 × 1024` row. -/
abbrev Row1 := (⟨2, ![1, 1024]⟩ : Shape).Idx → EReal

/-- Entry `c` of row `p` of the block blended with the state row. -/
def mixB (xb : Blk) (lx mu : Row1) (p : Fin 256) (c : Fin 1024) : EReal :=
  xb (ix2 p c) * mu (ix2 0 c) + lx (ix2 0 c) * (1 - mu (ix2 0 c))

/-- Entry `n` of row `p` of `a` times the (already transposed) matrix `Wt`, plus the bias row. -/
def projB (a : Fin 256 → Fin 1024 → EReal) (Wt : Mat) (b : Row1) (p : Fin 256) (n : Fin 1024) : EReal :=
  (∑ c : Fin 1024, a p c * Wt (ix2 c n)) + b (ix2 0 n)

/-- The gated value of the block at `(p, n)`. -/
def gatedB (xb : Blk) (lx num den bonus mk mv mr : Row1) (Wkt : Mat) (bk : Row1) (Wvt : Mat) (bv : Row1)
    (Wrt : Mat) (br : Row1) (p : Fin 256) (n : Fin 1024) : EReal :=
  Ideal.logistic (projB (mixB xb lx mr) Wrt br p n)
    * Ideal.div (num (ix2 0 n) + Ideal.exp (bonus (ix2 0 n) + projB (mixB xb lx mk) Wkt bk p n) * projB (mixB xb lx mv) Wvt bv p n)
        (den (ix2 0 n) + Ideal.exp (bonus (ix2 0 n) + projB (mixB xb lx mk) Wkt bk p n))

/-- The block of the result. -/
def outB (xb : Blk) (lx num den bonus mk mv mr : Row1) (Wkt : Mat) (bk : Row1) (Wvt : Mat) (bv : Row1)
    (Wrt : Mat) (br : Row1) (Wot : Mat) (bo : Row1) : Blk :=
  fun j => projB (gatedB xb lx num den bonus mk mv mr Wkt bk Wvt bv Wrt br) Wot bo (j 0) (j 1)

end Wkv

end
-- ==== Proof.SpecBlock.lean ====
import proofs.«120466_j13941463842954_1_alg».proof.Proof.Spec

/-!
# A block of the step is the step's rows of that block

If a block `xb` holds rows `256 T … 256 T + 255` of the batch, the eleven `1 × 1024` rows hold the eleven vectors,
and the four matrices are the transposes of the four weight matrices, then the block of the step at `(p, q)` is the
whole step at `(256 T + p, q)`: both are the same sums of the same products.
-/

noncomputable section

namespace Wkv

open Idealize.ShloMosaic Idealize.ShloMosaic.ValueIdx

/-- The blended entries agree. -/
theorem mixB_eq (x : Rows) (lx mu : Vec1) (xb : Blk) (rlx rmu : Row1) (T : Nat) (hT : T < 64)
    (hx : ∀ (p : Fin 256) (c : Fin 1024), xb (ix2 p c) = x (ix2 (⟨256 * T + p.val, by have := p.isLt; omega⟩ : Fin 16384) c))
    (hlx : ∀ c : Fin 1024, rlx (ix2 (0 : Fin 1) c) = lx (ix1 c)) (hmu : ∀ c : Fin 1024, rmu (ix2 (0 : Fin 1) c) = mu (ix1 c))
    (p : Fin 256) (c : Fin 1024) :
    mixB xb rlx rmu p c = mix x lx mu (⟨256 * T + p.val, by have := p.isLt; omega⟩ : Fin 16384) c := by
  unfold mixB mix
  rw [hx, hlx, hmu]

/-- The projections agree when the rows they multiply do. -/
theorem projB_eq (a : Fin 16384 → Fin 1024 → EReal) (ab : Fin 256 → Fin 1024 → EReal) (W Wt : Mat) (b : Vec1) (rb : Row1)
    (r : Fin 16384) (p : Fin 256) (ha : ∀ c, ab p c = a r c)
    (hW : ∀ a b : Fin 1024, Wt (ix2 a b) = W (ix2 b a)) (hb : ∀ c : Fin 1024, rb (ix2 (0 : Fin 1) c) = b (ix1 c)) (n : Fin 1024) :
    projB ab Wt rb p n = proj a W b r n := by
  unfold projB proj
  rw [hb]
  refine congrArg (· + b (ix1 n)) (Finset.sum_congr rfl fun c _ => ?_)
  rw [ha, hW]

/-- The block of the step is the step's rows of that block. -/
theorem outB_eq (x : Rows) (lx num den bonus mk mv mr : Vec1) (Wk : Mat) (bk : Vec1) (Wv : Mat) (bv : Vec1)
    (Wr : Mat) (br : Vec1) (Wo : Mat) (bo : Vec1)
    (xb : Blk) (rlx rnum rden rbonus rmk rmv rmr : Row1) (Wkt : Mat) (rbk : Row1) (Wvt : Mat) (rbv : Row1)
    (Wrt : Mat) (rbr : Row1) (Wot : Mat) (rbo : Row1) (T : Nat) (hT : T < 64)
    (hx : ∀ (p : Fin 256) (c : Fin 1024), xb (ix2 p c) = x (ix2 (⟨256 * T + p.val, by have := p.isLt; omega⟩ : Fin 16384) c))
    (hlx : ∀ c : Fin 1024, rlx (ix2 (0 : Fin 1) c) = lx (ix1 c)) (hnum : ∀ c : Fin 1024, rnum (ix2 (0 : Fin 1) c) = num (ix1 c))
    (hden : ∀ c : Fin 1024, rden (ix2 (0 : Fin 1) c) = den (ix1 c)) (hbonus : ∀ c : Fin 1024, rbonus (ix2 (0 : Fin 1) c) = bonus (ix1 c))
    (hmk : ∀ c : Fin 1024, rmk (ix2 (0 : Fin 1) c) = mk (ix1 c)) (hmv : ∀ c : Fin 1024, rmv (ix2 (0 : Fin 1) c) = mv (ix1 c))
    (hmr : ∀ c : Fin 1024, rmr (ix2 (0 : Fin 1) c) = mr (ix1 c)) (hbk : ∀ c : Fin 1024, rbk (ix2 (0 : Fin 1) c) = bk (ix1 c))
    (hbv : ∀ c : Fin 1024, rbv (ix2 (0 : Fin 1) c) = bv (ix1 c)) (hbr : ∀ c : Fin 1024, rbr (ix2 (0 : Fin 1) c) = br (ix1 c))
    (hbo : ∀ c : Fin 1024, rbo (ix2 (0 : Fin 1) c) = bo (ix1 c))
    (hWk : ∀ a b : Fin 1024, Wkt (ix2 a b) = Wk (ix2 b a)) (hWv : ∀ a b : Fin 1024, Wvt (ix2 a b) = Wv (ix2 b a))
    (hWr : ∀ a b : Fin 1024, Wrt (ix2 a b) = Wr (ix2 b a)) (hWo : ∀ a b : Fin 1024, Wot (ix2 a b) = Wo (ix2 b a))
    (p : Fin 256) (q : Fin 1024) :
    outB xb rlx rnum rden rbonus rmk rmv rmr Wkt rbk Wvt rbv Wrt rbr Wot rbo (ix2 p q)
      = out x lx num den bonus mk mv mr Wk bk Wv bv Wr br Wo bo (ix2 (⟨256 * T + p.val, by have := p.isLt; omega⟩ : Fin 16384) q) := by
  show projB _ Wot rbo p q = proj _ Wo bo (⟨256 * T + p.val, _⟩ : Fin 16384) q
  refine projB_eq _ _ Wo Wot bo rbo _ p (fun n => ?_) hWo hbo q
  unfold gatedB gated
  rw [projB_eq (mix x lx mr) (mixB xb rlx rmr) Wr Wrt br rbr _ p (fun c => mixB_eq x lx mr xb rlx rmr T hT hx hlx hmr p c) hWr hbr n,
    projB_eq (mix x lx mk) (mixB xb rlx rmk) Wk Wkt bk rbk _ p (fun c => mixB_eq x lx mk xb rlx rmk T hT hx hlx hmk p c) hWk hbk n,
    projB_eq (mix x lx mv) (mixB xb rlx rmv) Wv Wvt bv rbv _ p (fun c => mixB_eq x lx mv xb rlx rmv T hT hx hlx hmv p c) hWv hbv n,
    hnum, hden, hbonus]

end Wkv

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.BodyValue.lean ====
import proofs.«120466_j13941463842954_1_alg».proof.Proof.Gen.KernelIdeal.Skeleton
import proofs.«120466_j13941463842954_1_alg».proof.Proof.Spec
import proofs.«120466_j13941463842954_1_alg».proof.Proof.LibPlainProduct
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-!
# The body's arithmetic on one block of 256 rows, read at an index

The body blends the block with the state row three times, multiplies each blend by a transposed weight matrix,
adds a bias row, and combines the three products into the gated value, which it multiplies by the transposed
output matrix. Read at a point `(p, q)` of the block, every layout operation disappears: a row reshaped to a
vector and back is the row, a row broadcast over the block reads the row at `(0, q)`, a change of float format is
the identity, and a product into the zero accumulator is the sum over the contracted coordinate.
-/

namespace Cert.KernelIdeal.BodyValue

open Idealize.ShloMosaic Idealize.ShloMosaic.ValueIdx Cert.KernelIdeal Cert.KernelIdeal.Gen

/-- A `1 × 1024` row reshaped to a vector of 1024 entries and back is the row. -/
theorem row_there_and_back (u : Vec Ideal S1x1024 .f32) :
    shapeCast S1x1024 (shapeCast S1024 u shapeCasts_S1x1024_S1024) shapeCasts_S1024_S1x1024 = u :=
  shapeCast_shapeCast u _ _

/-- Each of the eleven rows the body reshapes to a vector and back is unchanged. -/
theorem pay2_eq (u : Vec Ideal S1x1024 .f32) : k0_pay2 u = u := row_there_and_back u
theorem pay3_eq (u : Vec Ideal S1x1024 .f32) : k0_pay3 u = u := row_there_and_back u
theorem pay4_eq (u : Vec Ideal S1x1024 .f32) : k0_pay4 u = u := row_there_and_back u
theorem pay5_eq (u : Vec Ideal S1x1024 .f32) : k0_pay5 u = u := row_there_and_back u
theorem pay6_eq (u : Vec Ideal S1x1024 .f32) : k0_pay6 u = u := row_there_and_back u
theorem pay7_eq (u : Vec Ideal S1x1024 .f32) : k0_pay7 u = u := row_there_and_back u
theorem pay8_eq (u : Vec Ideal S1x1024 .f32) : k0_pay8 u = u := row_there_and_back u
theorem pay9_eq (u : Vec Ideal S1x1024 .f32) : k0_pay9 u = u := row_there_and_back u
theorem pay10_eq (u : Vec Ideal S1x1024 .f32) : k0_pay10 u = u := row_there_and_back u
theorem pay11_eq (u : Vec Ideal S1x1024 .f32) : k0_pay11 u = u := row_there_and_back u
theorem pay12_eq (u : Vec Ideal S1x1024 .f32) : k0_pay12 u = u := row_there_and_back u

/-- A row broadcast over the 256 rows of the block reads, at `(p, q)`, the row at `(0, q)`. -/
theorem row_over_block_at (u : FVec Ideal S1x1024 .f32) (p : Fin 256) (q : Fin 1024) :
    broadcastTo S256x1024 u broadcasts_S1x1024_S256x1024 (ix2 p q) = u (ix2 (0 : Fin 1) q) :=
  broadcastTo_1b_ab_apply u _ p q

/-- The dot-dimensions record of the body's four products is the plain one. -/
theorem dot_is_plain : dot_S256x1024_S1024x1024_S256x1024_1_0_0_1_n_n = DotDims.plain 256 1024 1024 := rfl

/-- A product of the block by a 1024 × 1024 matrix into the zero accumulator, at `(p, q)`. -/
theorem product_at (A : FVec Ideal S256x1024 .bf16) (B : FVec Ideal S1024x1024 .bf16) (p : Fin 256) (q : Fin 1024) :
    matmul dot_S256x1024_S1024x1024_S256x1024_1_0_0_1_n_n none A B (constant S256x1024 .f32 0x00000000#32) (ix2 p q)
      = ∑ c : Fin 1024, A (ix2 p c) * B (ix2 c q) := by
  rw [PlainProduct.matmul_at _ dot_is_plain, constant_apply, Ideal.ofBits_zero_f32, zero_add]

/-- The exponential of an array, at an index. -/
theorem exp_at {s : Shape} (a : FVec Ideal s .f32) (i : s.Idx) : exp a i = Ideal.exp (a i) := rfl

/-- The logistic function of an array, at an index. -/
theorem logistic_at {s : Shape} (a : FVec Ideal s .f32) (i : s.Idx) : logistic a i = Ideal.logistic (a i) := rfl

/-- The first factor of the gated value's quotient: `(num + e * v) / (den + e)` with `e = exp (bonus + k)`,
    at `(p, q)`. -/
theorem ratio_at (v0 : Vec Ideal S256x1024 .f32) (u0 u1 u2 u3 u4 u5 u7 u8 : Vec Ideal S1x1024 .f32)
    (w2 w3 : Vec Ideal S1024x1024 .bf16) (p : Fin 256) (q : Fin 1024) :
    k0_pay14 v0 u0 u1 u2 u3 u4 u5 u7 u8 (broadcastTo S256x1024 u4 broadcasts_S1x1024_S256x1024) w2 w3 (ix2 p q)
      = Ideal.div
          (u1 (ix2 0 q) + Ideal.exp (u3 (ix2 0 q) + Wkv.projB (Wkv.mixB v0 u0 u4) w2 u7 p q)
            * Wkv.projB (Wkv.mixB v0 u0 u5) w3 u8 p q)
          (u2 (ix2 0 q) + Ideal.exp (u3 (ix2 0 q) + Wkv.projB (Wkv.mixB v0 u0 u4) w2 u7 p q)) := by
  unfold k0_pay14 Wkv.projB Wkv.mixB
  simp only [divf_apply, addf_apply, mulf_apply, subf_apply, truncf_apply, exp_at, row_over_block_at, product_at,
    shapeCast_self, broadcast_apply, Ideal.ofBits_def, Ideal.ofBits_one_f32]

/-- The gate: the logistic function of the receptance product, at `(p, q)`. -/
theorem gate_at (v0 : Vec Ideal S256x1024 .f32) (u0 u6 u9 : Vec Ideal S1x1024 .f32)
    (w4 : Vec Ideal S1024x1024 .bf16) (p : Fin 256) (q : Fin 1024) :
    k0_pay15 v0 u0 u6 u9 w4 (ix2 p q) = Ideal.logistic (Wkv.projB (Wkv.mixB v0 u0 u6) w4 u9 p q) := by
  unfold k0_pay15 Wkv.projB Wkv.mixB
  simp only [addf_apply, mulf_apply, subf_apply, truncf_apply, logistic_at, row_over_block_at, product_at,
    shapeCast_self, broadcast_apply, Ideal.ofBits_def, Ideal.ofBits_one_f32]

/-- The last product: the gate times the quotient, times the transposed output matrix, plus the output bias row,
    at `(p, q)`. -/
theorem result_at (u10 : FVec Ideal S1x1024 .f32) (a g : FVec Ideal S256x1024 .f32)
    (w5 : Vec Ideal S1024x1024 .bf16) (p : Fin 256) (q : Fin 1024) :
    k0_pay1 u10 a g w5 (ix2 p q) = (∑ c : Fin 1024, (g (ix2 p c) * a (ix2 p c)) * w5 (ix2 c q)) + u10 (ix2 0 q) := by
  unfold k0_pay1
  simp only [addf_apply, mulf_apply, truncf_apply, row_over_block_at, product_at, shapeCast_self]

/-- The body's stored block is the specification's block, entry by entry. -/
theorem body_at (v0 : Vec Ideal S256x1024 .f32) (u0 u1 u2 u3 u4 u5 u6 u7 u8 u9 u10 : Vec Ideal S1x1024 .f32)
    (w2 w3 w4 w5 : Vec Ideal S1024x1024 .bf16) (j : S256x1024.Idx) :
    k0_pay1 (k0_pay12 u10)
        (k0_pay14 v0 (k0_pay2 u0) (k0_pay3 u1) (k0_pay4 u2) (k0_pay5 u3) (k0_pay6 u4) (k0_pay7 u5) (k0_pay9 u7)
          (k0_pay10 u8) (k0_pay13 u4) w2 w3)
        (k0_pay15 v0 (k0_pay2 u0) (k0_pay8 u6) (k0_pay11 u9) w4) w5 j
      = Wkv.outB v0 u0 u1 u2 u3 u4 u5 u6 w2 u7 w3 u8 w4 u9 w5 u10 j := by
  obtain ⟨p, q, rfl⟩ : ∃ (p : Fin 256) (q : Fin 1024), j = ix2 p q := ⟨j 0, j 1, eq_ix2 j⟩
  have h13 : k0_pay13 u4 = broadcastTo S256x1024 u4 broadcasts_S1x1024_S256x1024 := by
    unfold k0_pay13; rw [pay6_eq]
  rw [pay2_eq, pay3_eq, pay4_eq, pay5_eq, pay6_eq, pay7_eq, pay8_eq, pay9_eq, pay10_eq, pay11_eq, pay12_eq, h13,
    result_at]
  simp only [ratio_at, gate_at]
  rfl

end Cert.KernelIdeal.BodyValue
-- ==== Proof.ResultValue.lean ====
import proofs.«120466_j13941463842954_1_alg».proof.Proof.KernelIdealRun
import proofs.«120466_j13941463842954_1_alg».proof.Proof.HostPrefix
import proofs.«120466_j13941463842954_1_alg».proof.Proof.SpecBlock
import proofs.«120466_j13941463842954_1_alg».proof.Proof.BodyValue
import Idealize.ShloMosaic.Lib.Pipeline.Value
import Idealize.ShloMosaic.Lib.ValueIdx
import Idealize.ShloMosaic.Lib.StableHlo.Run
import Idealize.ShloMosaic.PureOps.Ideal.Laws

/-!
# The result array after the run is the step of the argument arrays

Point `t` of the grid sees rows `256 t … 256 t + 255` of the batch, the whole packed array of the eleven vectors and
the four transposed matrices, and writes back block `t` of the result. The body's arithmetic on those blocks is the
block form of the step, which is the step's rows `256 t … 256 t + 255`; the 64 blocks tile the result array; so
after the run the result array is the step of the sixteen argument arrays, which end as launched.
-/

set_option maxRecDepth 16384

noncomputable section

namespace Cert.KernelIdeal.Result

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the batch window and the result window are at block row `t`; the other five
    windows stay at block 0. -/
theorem idx_facts : ∀ t : Fin cfg0.N, win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem points : cfg0.N = 64 := N_0

/-! ## The input blocks at a point -/

/-- The batch block at point `t` is rows `256 t …` of the batch as launched. -/
theorem batch_block (c : Dev nD) (t : Fin cfg0.N) (p : Fin 256) (q : Fin 1024) :
    (iblk m c 0 t : S256x1024.Idx → EReal) (ix2 p q)
      = (m ((c : Thread nD τ).loc main_arg0) : S16384x1024.Idx → EReal)
          (ix2 (⟨256 * t.val + p.val, by have := p.isLt; have := lt_of_lt_of_eq t.isLt points; omega⟩ : Fin 16384) q) := by
  show V m c main_arg0 (((cfg0.win 0).blk t).view.emb (ix2 p q)) = _
  rw [V_main_arg0]
  refine congrArg _ ?_
  obtain ⟨e0, e1, e2, e3, e4, e5, e6, e7, e8, e9, e10, e11, e12, e13⟩ := idx_facts t
  funext a; apply Fin.ext
  match a with
  | ⟨0, _⟩ => show win0_0.index t (0 : Fin 2) * 256 + 1 * p.val = 256 * t.val + p.val; omega
  | ⟨1, _⟩ => show win0_0.index t (1 : Fin 2) * 1024 + 1 * q.val = q.val; omega

/-- The packed block is the whole packed array. -/
theorem packed_block (c : Dev nD) (t : Fin cfg0.N) (y : S11x1024.Idx) :
    (iblk m c 1 t : S11x1024.Idx → EReal) y = (V m c main_v11 : S11x1024.Idx → EReal) y := by
  show V m c main_v11 (((cfg0.win 1).blk t).view.emb y) = _
  refine congrArg _ ?_
  obtain ⟨e0, e1, e2, e3, e4, e5, e6, e7, e8, e9, e10, e11, e12, e13⟩ := idx_facts t
  funext a; apply Fin.ext
  match a with
  | ⟨0, _⟩ => show win0_1.index t (0 : Fin 2) * 11 + 1 * (y 0).val = (y 0).val; omega
  | ⟨1, _⟩ => show win0_1.index t (1 : Fin 2) * 1024 + 1 * (y 1).val = (y 1).val; omega

/-! Each matrix block is the whole transposed matrix. -/

theorem matrix_block2 (c : Dev nD) (t : Fin cfg0.N) (y : S1024x1024.Idx) :
    (iblk m c 2 t : S1024x1024.Idx → EReal) y = (V m c main_v13 : S1024x1024.Idx → EReal) y := by
  show V m c main_v13 (((cfg0.win 2).blk t).view.emb y) = _
  refine congrArg _ ?_
  obtain ⟨e0, e1, e2, e3, e4, e5, e6, e7, e8, e9, e10, e11, e12, e13⟩ := idx_facts t
  funext a; apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

theorem matrix_block3 (c : Dev nD) (t : Fin cfg0.N) (y : S1024x1024.Idx) :
    (iblk m c 3 t : S1024x1024.Idx → EReal) y = (V m c main_v15 : S1024x1024.Idx → EReal) y := by
  show V m c main_v15 (((cfg0.win 3).blk t).view.emb y) = _
  refine congrArg _ ?_
  obtain ⟨e0, e1, e2, e3, e4, e5, e6, e7, e8, e9, e10, e11, e12, e13⟩ := idx_facts t
  funext a; apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

theorem matrix_block4 (c : Dev nD) (t : Fin cfg0.N) (y : S1024x1024.Idx) :
    (iblk m c 4 t : S1024x1024.Idx → EReal) y = (V m c main_v17 : S1024x1024.Idx → EReal) y := by
  show V m c main_v17 (((cfg0.win 4).blk t).view.emb y) = _
  refine congrArg _ ?_
  obtain ⟨e0, e1, e2, e3, e4, e5, e6, e7, e8, e9, e10, e11, e12, e13⟩ := idx_facts t
  funext a; apply Fin.ext
  match a with
  | ⟨0, _⟩ => show win0_4.index t (0 : Fin 2) * 1024 + 1 * (y 0).val = (y 0).val; omega
  | ⟨1, _⟩ => show win0_4.index t (1 : Fin 2) * 1024 + 1 * (y 1).val = (y 1).val; omega

theorem matrix_block5 (c : Dev nD) (t : Fin cfg0.N) (y : S1024x1024.Idx) :
    (iblk m c 5 t : S1024x1024.Idx → EReal) y = (V m c main_v19 : S1024x1024.Idx → EReal) y := by
  show V m c main_v19 (((cfg0.win 5).blk t).view.emb y) = _
  refine congrArg _ ?_
  obtain ⟨e0, e1, e2, e3, e4, e5, e6, e7, e8, e9, e10, e11, e12, e13⟩ := idx_facts t
  funext a; apply Fin.ext
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-! A load of row `k` of the packed block, at column `q`, is the block at `(k, q)`. -/

theorem row_load0 (x1 : Vec Ideal S11x1024 .f32) (q : Fin 1024) :
    (View.ld x1 rowRect0 : Vec Ideal S1x1024 .f32) (ix2 (0 : Fin 1) q) = x1 (ix2 (0 : Fin 11) q) := by
  show x1 (rowRect0.emb (ix2 (0 : Fin 1) q)) = _
  refine congrArg x1 ?_
  funext a; apply Fin.ext
  match a with
  | ⟨0, _⟩ => rfl
  | ⟨1, _⟩ => show 0 + 1 * q.val = q.val; omega

theorem row_load1 (x1 : Vec Ideal S11x1024 .f32) (q : Fin 1024) :
    (View.ld x1 rowRect1 : Vec Ideal S1x1024 .f32) (ix2 (0 : Fin 1) q) = x1 (ix2 (1 : Fin 11) q) := by
  show x1 (rowRect1.emb (ix2 (0 : Fin 1) q)) = _
  refine congrArg x1 ?_
  funext a; apply Fin.ext
  match a with
  | ⟨0, _⟩ => rfl
  | ⟨1, _⟩ => show 0 + 1 * q.val = q.val; omega

theorem row_load2 (x1 : Vec Ideal S11x1024 .f32) (q : Fin 1024) :
    (View.ld x1 rowRect2 : Vec Ideal S1x1024 .f32) (ix2 (0 : Fin 1) q) = x1 (ix2 (2 : Fin 11) q) := by
  show x1 (rowRect2.emb (ix2 (0 : Fin 1) q)) = _
  refine congrArg x1 ?_
  funext a; apply Fin.ext
  match a with
  | ⟨0, _⟩ => rfl
  | ⟨1, _⟩ => show 0 + 1 * q.val = q.val; omega

theorem row_load3 (x1 : Vec Ideal S11x1024 .f32) (q : Fin 1024) :
    (View.ld x1 rowRect3 : Vec Ideal S1x1024 .f32) (ix2 (0 : Fin 1) q) = x1 (ix2 (3 : Fin 11) q) := by
  show x1 (rowRect3.emb (ix2 (0 : Fin 1) q)) = _
  refine congrArg x1 ?_
  funext a; apply Fin.ext
  match a with
  | ⟨0, _⟩ => rfl
  | ⟨1, _⟩ => show 0 + 1 * q.val = q.val; omega

theorem row_load4 (x1 : Vec Ideal S11x1024 .f32) (q : Fin 1024) :
    (View.ld x1 rowRect4 : Vec Ideal S1x1024 .f32) (ix2 (0 : Fin 1) q) = x1 (ix2 (4 : Fin 11) q) := by
  show x1 (rowRect4.emb (ix2 (0 : Fin 1) q)) = _
  refine congrArg x1 ?_
  funext a; apply Fin.ext
  match a with
  | ⟨0, _⟩ => rfl
  | ⟨1, _⟩ => show 0 + 1 * q.val = q.val; omega

theorem row_load5 (x1 : Vec Ideal S11x1024 .f32) (q : Fin 1024) :
    (View.ld x1 rowRect5 : Vec Ideal S1x1024 .f32) (ix2 (0 : Fin 1) q) = x1 (ix2 (5 : Fin 11) q) := by
  show x1 (rowRect5.emb (ix2 (0 : Fin 1) q)) = _
  refine congrArg x1 ?_
  funext a; apply Fin.ext
  match a with
  | ⟨0, _⟩ => rfl
  | ⟨1, _⟩ => show 0 + 1 * q.val = q.val; omega

theorem row_load6 (x1 : Vec Ideal S11x1024 .f32) (q : Fin 1024) :
    (View.ld x1 rowRect6 : Vec Ideal S1x1024 .f32) (ix2 (0 : Fin 1) q) = x1 (ix2 (6 : Fin 11) q) := by
  show x1 (rowRect6.emb (ix2 (0 : Fin 1) q)) = _
  refine congrArg x1 ?_
  funext a; apply Fin.ext
  match a with
  | ⟨0, _⟩ => rfl
  | ⟨1, _⟩ => show 0 + 1 * q.val = q.val; omega

theorem row_load7 (x1 : Vec Ideal S11x1024 .f32) (q : Fin 1024) :
    (View.ld x1 rowRect7 : Vec Ideal S1x1024 .f32) (ix2 (0 : Fin 1) q) = x1 (ix2 (7 : Fin 11) q) := by
  show x1 (rowRect7.emb (ix2 (0 : Fin 1) q)) = _
  refine congrArg x1 ?_
  funext a; apply Fin.ext
  match a with
  | ⟨0, _⟩ => rfl
  | ⟨1, _⟩ => show 0 + 1 * q.val = q.val; omega

theorem row_load8 (x1 : Vec Ideal S11x1024 .f32) (q : Fin 1024) :
    (View.ld x1 rowRect8 : Vec Ideal S1x1024 .f32) (ix2 (0 : Fin 1) q) = x1 (ix2 (8 : Fin 11) q) := by
  show x1 (rowRect8.emb (ix2 (0 : Fin 1) q)) = _
  refine congrArg x1 ?_
  funext a; apply Fin.ext
  match a with
  | ⟨0, _⟩ => rfl
  | ⟨1, _⟩ => show 0 + 1 * q.val = q.val; omega

theorem row_load9 (x1 : Vec Ideal S11x1024 .f32) (q : Fin 1024) :
    (View.ld x1 rowRect9 : Vec Ideal S1x1024 .f32) (ix2 (0 : Fin 1) q) = x1 (ix2 (9 : Fin 11) q) := by
  show x1 (rowRect9.emb (ix2 (0 : Fin 1) q)) = _
  refine congrArg x1 ?_
  funext a; apply Fin.ext
  match a with
  | ⟨0, _⟩ => rfl
  | ⟨1, _⟩ => show 0 + 1 * q.val = q.val; omega

theorem row_load10 (x1 : Vec Ideal S11x1024 .f32) (q : Fin 1024) :
    (View.ld x1 rowRect10 : Vec Ideal S1x1024 .f32) (ix2 (0 : Fin 1) q) = x1 (ix2 (10 : Fin 11) q) := by
  show x1 (rowRect10.emb (ix2 (0 : Fin 1) q)) = _
  refine congrArg x1 ?_
  funext a; apply Fin.ext
  match a with
  | ⟨0, _⟩ => rfl
  | ⟨1, _⟩ => show 0 + 1 * q.val = q.val; omega

/-! ## What a point writes back -/

/-- Point `t` writes back block `t` of the step of the argument arrays. -/
theorem flushed_eq (c : Dev nD) (t : Fin cfg0.N) :
    (dats m 0 c).flushed 6 t = ((cfg0.win 6).blk t).view.read (Elt Ideal) (Wkv.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  show (cfg0.win 6).cut (grid0.coords t) ((dats m 0 c).after 6 t) = _
  rw [after6]
  unfold outBlock
  rw [View.canon_unit_zero hz]
  funext j
  obtain ⟨p, q, rfl⟩ : ∃ (p : Fin 256) (q : Fin 1024), j = ix2 p q := ⟨j 0, j 1, eq_ix2 j⟩
  refine (Cert.KernelIdeal.BodyValue.body_at (View.ld (iblk m c 0 t) blkRect)
    (View.ld (iblk m c 1 t) rowRect0) (View.ld (iblk m c 1 t) rowRect1) (View.ld (iblk m c 1 t) rowRect2) (View.ld (iblk m c 1 t) rowRect3)
    (View.ld (iblk m c 1 t) rowRect4) (View.ld (iblk m c 1 t) rowRect5) (View.ld (iblk m c 1 t) rowRect6) (View.ld (iblk m c 1 t) rowRect7)
    (View.ld (iblk m c 1 t) rowRect8) (View.ld (iblk m c 1 t) rowRect9) (View.ld (iblk m c 1 t) rowRect10)
    (View.ld (iblk m c 2 t) matRect) (View.ld (iblk m c 3 t) matRect) (View.ld (iblk m c 4 t) matRect) (View.ld (iblk m c 5 t) matRect) (ix2 p q)).trans ?_
  refine (Wkv.outB_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) _ _ _ _ _ _ _ _ _ _ _ _ _ _ _ _ t.val (lt_of_lt_of_eq t.isLt points)
    (fun p q => (congrFun (View.ld_unit_zero hz _ _) _).trans (batch_block m c t p q))
    (fun q => (row_load0 _ q).trans ((packed_block m c t _).trans (packed_row0 m c q)))
    (fun q => (row_load1 _ q).trans ((packed_block m c t _).trans (packed_row1 m c q)))
    (fun q => (row_load2 _ q).trans ((packed_block m c t _).trans (packed_row2 m c q)))
    (fun q => (row_load3 _ q).trans ((packed_block m c t _).trans (packed_row3 m c q)))
    (fun q => (row_load4 _ q).trans ((packed_block m c t _).trans (packed_row4 m c q)))
    (fun q => (row_load5 _ q).trans ((packed_block m c t _).trans (packed_row5 m c q)))
    (fun q => (row_load6 _ q).trans ((packed_block m c t _).trans (packed_row6 m c q)))
    (fun q => (row_load7 _ q).trans ((packed_block m c t _).trans (packed_row7 m c q)))
    (fun q => (row_load8 _ q).trans ((packed_block m c t _).trans (packed_row8 m c q)))
    (fun q => (row_load9 _ q).trans ((packed_block m c t _).trans (packed_row9 m c q)))
    (fun q => (row_load10 _ q).trans ((packed_block m c t _).trans (packed_row10 m c q)))
    (fun a b => (congrFun (View.ld_unit_zero hz _ _) _).trans ((matrix_block2 m c t _).trans (transposed_v13 m c a b)))
    (fun a b => (congrFun (View.ld_unit_zero hz _ _) _).trans ((matrix_block3 m c t _).trans (transposed_v15 m c a b)))
    (fun a b => (congrFun (View.ld_unit_zero hz _ _) _).trans ((matrix_block4 m c t _).trans (transposed_v17 m c a b)))
    (fun a b => (congrFun (View.ld_unit_zero hz _ _) _).trans ((matrix_block5 m c t _).trans (transposed_v19 m c a b)))
    p q).trans ?_
  show _ = Wkv.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (((cfg0.win 6).blk t).view.emb (ix2 p q))
  refine congrArg _ ?_
  obtain ⟨e0, e1, e2, e3, e4, e5, e6, e7, e8, e9, e10, e11, e12, e13⟩ := idx_facts t
  funext a; apply Fin.ext
  match a with
  | ⟨0, _⟩ => show 256 * t.val + p.val = win0_6.index t (0 : Fin 2) * 256 + 1 * p.val; omega
  | ⟨1, _⟩ => show q.val = win0_6.index t (1 : Fin 2) * 1024 + 1 * q.val; omega

/-! ## The blocks tile the result array -/

theorem mem_blk (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v20).slice (win0_6.rect t)).set ↔ _
  rw [View.set_slice_whole, Rect.mem_set_unit]
  exact Iff.rfl

/-- Row `r` of the result is in the block of point `r / 256`. -/
theorem cover (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  let t : Fin cfg0.N := ⟨(i 0).val / 256, by rw [points]; omega⟩
  obtain ⟨e0, e1, e2, e3, e4, e5, e6, e7, e8, e9, e10, e11, e12, e13⟩ := idx_facts t
  have ht : t.val = (i 0).val / 256 := rfl
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The result array after the run. -/
theorem final (c : Dev nD) : (dats m 0 c).arrAt 6 cfg0.N = Wkv.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (dats m 0 c).arrAt_eq_of_cover 6 _ (fun t _ => flushed_eq m c t) cover

/-! ## The run, read -/

/-- Every weakly fair execution terminates with the result array at the step of the argument arrays and the argument
    arrays as launched. -/
theorem run : θ_run defs (onTc (τ := τ) (main (F := Ideal))) ⟨m, fun _ => 0, ρ⟩ fun r => ∀ c : Dev nD,
      r.2.mem ((c.tc : Thread nD τ).loc main_v20) = Wkv.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨((h c).1 6).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩)
    (run_main m ρ)

end Cert.KernelIdeal.Result

end
-- ==== Proof.RefValue.lean ====
import proofs.«120466_j13941463842954_1_alg».proof.Proof.Gen.ReferenceIdeal.Read
import proofs.«120466_j13941463842954_1_alg».proof.Proof.Spec
import proofs.«120466_j13941463842954_1_alg».proof.Proof.LibPlainProduct

/-!
# The reference computes the specified weighted key-value step

The reference forms each blend, each projection and the gated value one whole-array operation at a time: a vector is
first broadcast to a `1 × 1024` row and then over the 16384 rows, a weight matrix is transposed before the product,
and the logistic function is spelled `1 / (1 + exp (-s))`. Read at an index `(r, n)`, each broadcast reads the vector
at `n`, each transposed matrix at `(k, n)` reads the matrix at `(n, k)`, and each product is the sum over the
contracted coordinate. So the three blends are `Wkv.mix`, the three projections `Wkv.proj`, the gated value is
`Wkv.gated`, and the result is `Wkv.out`. No law of arithmetic is needed: both sides are the same expression.
-/

noncomputable section

namespace Cert.ReferenceIdeal.RefValue

open Cert.ReferenceIdeal Cert.ReferenceIdeal.Read Idealize.ShloMosaic Idealize.ShloMosaic.ValueIdx

/-- The batch of 16384 rows of 1024 entries. -/
abbrev Rows := (⟨S16384x1024, .f32⟩ : BufTy).Contents (Elt Ideal)
/-- A vector of 1024 entries. -/
abbrev Vec1 := (⟨S1024, .f32⟩ : BufTy).Contents (Elt Ideal)
/-- A 1024 × 1024 matrix. -/
abbrev Mat := (⟨S1024x1024, .f32⟩ : BufTy).Contents (Elt Ideal)

/-- The key blend at `(r, c)`. -/
theorem mixK_at (x0 : Rows) (x1 x5 : Vec1) (r : Fin 16384) (c : Fin 1024) :
    val_main_v8 (F := Ideal) x0 x1 x5 (ix2 r c) = Wkv.mix x0 x1 x5 r c := by
  have e1 : idx_main_v0 (idx_main_v1 (ix2 r c)) = ix1 c :=
    funext fun a => Fin.ext (by match a with | ⟨0, _⟩ => rfl)
  have e2 : idx_main_v6 (idx_main_v7 (ix2 r c)) = ix1 c :=
    funext fun a => Fin.ext (by match a with | ⟨0, _⟩ => rfl)
  rw [val_main_v8_apply, val_main_v2_apply, val_main_v1_apply, val_main_v0_apply, val_main_v7_apply,
    val_main_v6_apply, val_main_v5_apply, val_main_v4_apply, val_main_v3_apply, val_main_cst_apply, e1, e2]
  simp only [Ideal.addf_def, Ideal.mulf_def, Ideal.subf_def, Ideal.ofBits_def, Ideal.ofBits_one_f32]
  rfl

/-- The key projection at `(r, n)`. -/
theorem projK_at (x0 : Rows) (x1 x5 : Vec1) (x8 : Mat) (x9 : Vec1) (r : Fin 16384) (n : Fin 1024) :
    val_main_v13 (F := Ideal) x0 x1 x5 x8 x9 (ix2 r n) = Wkv.proj (Wkv.mix x0 x1 x5) x8 x9 r n := by
  have el : ∀ k : Fin 1024, lidx_main_v10 (ix2 r n) k = ix2 r k := fun k =>
    funext fun a => Fin.ext (by match a with | ⟨0, _⟩ => rfl | ⟨1, _⟩ => rfl)
  have er : ∀ k : Fin 1024, idx_main_v9 (ridx_main_v10 (ix2 r n) k) = ix2 n k := fun k =>
    funext fun a => Fin.ext (by match a with | ⟨0, _⟩ => rfl | ⟨1, _⟩ => rfl)
  have eb : idx_main_v11 (idx_main_v12 (ix2 r n)) = ix1 n :=
    funext fun a => Fin.ext (by match a with | ⟨0, _⟩ => rfl)
  rw [val_main_v13_apply, val_main_v10_apply, val_main_v12_apply, val_main_v11_apply, eb]
  simp only [Ideal.addf_def]
  unfold Wkv.proj
  refine congrArg (· + x9 (ix1 n)) (Finset.sum_congr rfl fun k _ => ?_)
  rw [el k, mixK_at, val_main_v9_apply, er k]

/-- The value blend at `(r, c)`. -/
theorem mixV_at (x0 : Rows) (x1 x6 : Vec1) (r : Fin 16384) (c : Fin 1024) :
    val_main_v22 (F := Ideal) x0 x1 x6 (ix2 r c) = Wkv.mix x0 x1 x6 r c := by
  have e1 : idx_main_v14 (idx_main_v15 (ix2 r c)) = ix1 c :=
    funext fun a => Fin.ext (by match a with | ⟨0, _⟩ => rfl)
  have e2 : idx_main_v20 (idx_main_v21 (ix2 r c)) = ix1 c :=
    funext fun a => Fin.ext (by match a with | ⟨0, _⟩ => rfl)
  rw [val_main_v22_apply, val_main_v16_apply, val_main_v15_apply, val_main_v14_apply, val_main_v21_apply,
    val_main_v20_apply, val_main_v19_apply, val_main_v18_apply, val_main_v17_apply, val_main_cst_0_apply, e1, e2]
  simp only [Ideal.addf_def, Ideal.mulf_def, Ideal.subf_def, Ideal.ofBits_def, Ideal.ofBits_one_f32]
  rfl

/-- The value projection at `(r, n)`. -/
theorem projV_at (x0 : Rows) (x1 x6 : Vec1) (x10 : Mat) (x11 : Vec1) (r : Fin 16384) (n : Fin 1024) :
    val_main_v27 (F := Ideal) x0 x1 x6 x10 x11 (ix2 r n) = Wkv.proj (Wkv.mix x0 x1 x6) x10 x11 r n := by
  have el : ∀ k : Fin 1024, lidx_main_v24 (ix2 r n) k = ix2 r k := fun k =>
    funext fun a => Fin.ext (by match a with | ⟨0, _⟩ => rfl | ⟨1, _⟩ => rfl)
  have er : ∀ k : Fin 1024, idx_main_v23 (ridx_main_v24 (ix2 r n) k) = ix2 n k := fun k =>
    funext fun a => Fin.ext (by match a with | ⟨0, _⟩ => rfl | ⟨1, _⟩ => rfl)
  have eb : idx_main_v25 (idx_main_v26 (ix2 r n)) = ix1 n :=
    funext fun a => Fin.ext (by match a with | ⟨0, _⟩ => rfl)
  rw [val_main_v27_apply, val_main_v24_apply, val_main_v26_apply, val_main_v25_apply, eb]
  simp only [Ideal.addf_def]
  unfold Wkv.proj
  refine congrArg (· + x11 (ix1 n)) (Finset.sum_congr rfl fun k _ => ?_)
  rw [el k, mixV_at, val_main_v23_apply, er k]

/-- The receptance blend at `(r, c)`. -/
theorem mixR_at (x0 : Rows) (x1 x7 : Vec1) (r : Fin 16384) (c : Fin 1024) :
    val_main_v36 (F := Ideal) x0 x1 x7 (ix2 r c) = Wkv.mix x0 x1 x7 r c := by
  have e1 : idx_main_v28 (idx_main_v29 (ix2 r c)) = ix1 c :=
    funext fun a => Fin.ext (by match a with | ⟨0, _⟩ => rfl)
  have e2 : idx_main_v34 (idx_main_v35 (ix2 r c)) = ix1 c :=
    funext fun a => Fin.ext (by match a with | ⟨0, _⟩ => rfl)
  rw [val_main_v36_apply, val_main_v30_apply, val_main_v29_apply, val_main_v28_apply, val_main_v35_apply,
    val_main_v34_apply, val_main_v33_apply, val_main_v32_apply, val_main_v31_apply, val_main_cst_1_apply, e1, e2]
  simp only [Ideal.addf_def, Ideal.mulf_def, Ideal.subf_def, Ideal.ofBits_def, Ideal.ofBits_one_f32]
  rfl

/-- The receptance projection at `(r, n)`. -/
theorem projR_at (x0 : Rows) (x1 x7 : Vec1) (x12 : Mat) (x13 : Vec1) (r : Fin 16384) (n : Fin 1024) :
    val_main_v41 (F := Ideal) x0 x1 x7 x12 x13 (ix2 r n) = Wkv.proj (Wkv.mix x0 x1 x7) x12 x13 r n := by
  have el : ∀ k : Fin 1024, lidx_main_v38 (ix2 r n) k = ix2 r k := fun k =>
    funext fun a => Fin.ext (by match a with | ⟨0, _⟩ => rfl | ⟨1, _⟩ => rfl)
  have er : ∀ k : Fin 1024, idx_main_v37 (ridx_main_v38 (ix2 r n) k) = ix2 n k := fun k =>
    funext fun a => Fin.ext (by match a with | ⟨0, _⟩ => rfl | ⟨1, _⟩ => rfl)
  have eb : idx_main_v39 (idx_main_v40 (ix2 r n)) = ix1 n :=
    funext fun a => Fin.ext (by match a with | ⟨0, _⟩ => rfl)
  rw [val_main_v41_apply, val_main_v38_apply, val_main_v40_apply, val_main_v39_apply, eb]
  simp only [Ideal.addf_def]
  unfold Wkv.proj
  refine congrArg (· + x13 (ix1 n)) (Finset.sum_congr rfl fun k _ => ?_)
  rw [el k, mixR_at, val_main_v37_apply, er k]

/-- The gated value at `(r, n)`: the reference spells the logistic function as `1 / (1 + exp (-s))`, which is its
    definition. -/
theorem gated_at (x0 : Rows) (x1 x2 x3 x4 x5 x6 x7 : Vec1) (x8 : Mat) (x9 : Vec1) (x10 : Mat) (x11 : Vec1)
    (x12 : Mat) (x13 : Vec1) (r : Fin 16384) (n : Fin 1024) :
    val_main_v60 (F := Ideal) x0 x1 x2 x3 x4 x5 x6 x7 x8 x9 x10 x11 x12 x13 (ix2 r n)
      = Wkv.gated x0 x1 x2 x3 x4 x5 x6 x7 x8 x9 x10 x11 x12 x13 r n := by
  have en : idx_main_v47 (idx_main_v48 (ix2 r n)) = ix1 n :=
    funext fun a => Fin.ext (by match a with | ⟨0, _⟩ => rfl)
  have ed : idx_main_v50 (idx_main_v51 (ix2 r n)) = ix1 n :=
    funext fun a => Fin.ext (by match a with | ⟨0, _⟩ => rfl)
  have eb : idx_main_v42 (idx_main_v43 (ix2 r n)) = ix1 n :=
    funext fun a => Fin.ext (by match a with | ⟨0, _⟩ => rfl)
  rw [val_main_v60_apply, val_main_v59_apply, val_main_v58_apply, val_main_cst_3_apply, val_main_v57_apply,
    val_main_v56_apply, val_main_cst_2_apply, val_main_v55_apply, val_main_v54_apply, projR_at,
    val_main_v53_apply, val_main_v49_apply, val_main_v48_apply, val_main_v47_apply, en, val_main_v46_apply,
    val_main_v52_apply, val_main_v51_apply, val_main_v50_apply, ed, val_main_v45_apply, val_main_v44_apply,
    val_main_v43_apply, val_main_v42_apply, eb, projK_at, projV_at]
  simp only [Ideal.addf_def, Ideal.mulf_def, Ideal.hostDivf_def, Ideal.hostUnary_exp_def, Ideal.hostNegf_def,
    Ideal.negf_def, Ideal.ofBits_def, Ideal.ofBits_one_f32]
  rfl

/-- The reference's result is the specification's. -/
theorem result_eq (x0 : Rows) (x1 x2 x3 x4 x5 x6 x7 : Vec1) (x8 : Mat) (x9 : Vec1) (x10 : Mat) (x11 : Vec1)
    (x12 : Mat) (x13 : Vec1) (x14 : Mat) (x15 : Vec1) :
    val_main_v65 (F := Ideal) x0 x1 x2 x3 x4 x5 x6 x7 x8 x9 x10 x11 x12 x13 x14 x15
      = Wkv.out x0 x1 x2 x3 x4 x5 x6 x7 x8 x9 x10 x11 x12 x13 x14 x15 := by
  funext i
  obtain ⟨r, n, rfl⟩ : ∃ (r : Fin 16384) (n : Fin 1024), i = ix2 r n := ⟨i 0, i 1, eq_ix2 i⟩
  have el : ∀ k : Fin 1024, lidx_main_v62 (ix2 r n) k = ix2 r k := fun k =>
    funext fun a => Fin.ext (by match a with | ⟨0, _⟩ => rfl | ⟨1, _⟩ => rfl)
  have er : ∀ k : Fin 1024, idx_main_v61 (ridx_main_v62 (ix2 r n) k) = ix2 n k := fun k =>
    funext fun a => Fin.ext (by match a with | ⟨0, _⟩ => rfl | ⟨1, _⟩ => rfl)
  have eb : idx_main_v63 (idx_main_v64 (ix2 r n)) = ix1 n :=
    funext fun a => Fin.ext (by match a with | ⟨0, _⟩ => rfl)
  rw [val_main_v65_apply, val_main_v62_apply, val_main_v64_apply, val_main_v63_apply, eb]
  simp only [Ideal.addf_def]
  show _ = Wkv.proj (Wkv.gated x0 x1 x2 x3 x4 x5 x6 x7 x8 x9 x10 x11 x12 x13) x14 x15 r n
  unfold Wkv.proj
  refine congrArg (· + x15 (ix1 n)) (Finset.sum_congr rfl fun k _ => ?_)
  rw [el k, gated_at, val_main_v61_apply, er k]

end Cert.ReferenceIdeal.RefValue

end
-- ==== Proof.lean ====
/-
  One step of a weighted key-value mix over a batch: the kernel against its reference, over the extended reals.

  The kernel packs the eleven state and parameter vectors into one 11 × 1024 array, transposes and narrows the four
  weight matrices, and runs a grid of 64 points, point t on rows 256 t … 256 t + 255 of the batch; the reference is one
  straight line of host operations. Read over the extended reals both compute, for every row r and column n,
    sum over c of gated r c * Wout n c + bout n,   gated r n = logistic rr * ((num + e * v) / (den + e)),   e = exp (bonus + k),
  where k, v, rr are the three projections of the row blended with the state row (Proof/Spec.lean). Narrowing is the
  identity there, the kernel's products into a zero accumulator and the host's products are the same sums, and the
  reference's spelled-out 1 / (1 + exp (-s)) is the logistic function; no law of arithmetic beyond that is used, so the
  precondition is never opened.

  The modules: Spec (the step as a function of the argument arrays, and on one block), SpecBlock (a block of the step is
  the step's rows of that block), BodyValue (the body's arithmetic is the block form), HostPrefix (what the host
  operations leave in the packed array and the transposed matrices), KernelRun / KernelIdealRun (the run of the program at
  either float instance: it terminates, faults nowhere, and leaves the argument arrays as launched), ResultValue (the
  result array after the run is the step), RefValue (the reference's result term is the step).
-/
import proofs.«120466_j13941463842954_1_alg».proof.Defs
import proofs.«120466_j13941463842954_1_alg».proof.Proof.Gen.Kernel
import proofs.«120466_j13941463842954_1_alg».proof.Proof.Gen.Kernel.Skeleton
import proofs.«120466_j13941463842954_1_alg».proof.Proof.Gen.Kernel.Launch
import proofs.«120466_j13941463842954_1_alg».proof.Proof.Gen.Kernel.Points
import proofs.«120466_j13941463842954_1_alg».proof.Proof.Gen.KernelIdeal
import proofs.«120466_j13941463842954_1_alg».proof.Proof.Gen.KernelIdeal.Skeleton
import proofs.«120466_j13941463842954_1_alg».proof.Proof.Gen.KernelIdeal.Launch
import proofs.«120466_j13941463842954_1_alg».proof.Proof.Gen.KernelIdeal.Points
import proofs.«120466_j13941463842954_1_alg».proof.Proof.Gen.ReferenceIdeal
import proofs.«120466_j13941463842954_1_alg».proof.Proof.Gen.ReferenceIdeal.Run
import proofs.«120466_j13941463842954_1_alg».proof.Proof.Gen.ReferenceIdeal.Read
import proofs.«120466_j13941463842954_1_alg».proof.Proof.Gen.Pre_finite_inputs
import proofs.«120466_j13941463842954_1_alg».proof.Proof.KernelRun
import proofs.«120466_j13941463842954_1_alg».proof.Proof.KernelIdealRun
import proofs.«120466_j13941463842954_1_alg».proof.Proof.ResultValue
import proofs.«120466_j13941463842954_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_kernel : Cert.frame_Kernel := fun m ρ _ => Cert.Kernel.Run.frame m ρ

/-- So does the kernel read over the extended reals. -/
theorem frame_kernel_ideal : Cert.frame_KernelIdeal := fun m ρ _ => Cert.KernelIdeal.Run.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the step of the (agreeing) argument arrays. -/
theorem algebraic : Cert.algebraic_KernelIdeal_ReferenceIdeal := by
  intro m ρ m' ρ' _ hagree
  refine ⟨fun c => Wkv.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, Cert.ReferenceIdeal.RefValue.result_eq]
  obtain ⟨h0, h1, h2, h3, h4, h5, h6, h7, h8, h9, h10, h11, h12, h13, h14, h15⟩ := hagree c
  rw [h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
